-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S3072 : Shape := ⟨1, ![3072]⟩
abbrev S1x3072 : Shape := ⟨2, ![1, 3072]⟩
abbrev S512x1024 : Shape := ⟨2, ![512, 1024]⟩
abbrev S512x3072 : Shape := ⟨2, ![512, 3072]⟩
abbrev S1x512x1024 : Shape := ⟨3, ![1, 512, 1024]⟩
abbrev S1x2048x1024 : Shape := ⟨3, ![1, 2048, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 19
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1024x3072, .f32⟩
  | .hbm, ⟨9, _⟩ => ⟨S1024x3072, .bf16⟩
  | .hbm, ⟨10, _⟩ => ⟨S3072, .f32⟩
  | .hbm, ⟨11, _⟩ => ⟨S1x3072, .f32⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S4x2048x1024, .bf16⟩
  | .hbm, ⟨16, _⟩ => ⟨S4x2048x1024, .bf16⟩
  | .hbm, ⟨17, _⟩ => ⟨S4x2048x1024, .bf16⟩
  | .hbm, ⟨18, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x512x1024, .f32⟩
  | .local _ .vmem, ⟨17, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x1024_S8192x1024 : S4x2048x1024.ShapeCasts S8192x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S8192x1024_S4x2048x1024 : S8192x1024.ShapeCasts S4x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KernelRun.lean ====
/-
  The run of the two-kernel program, read as values.  The program is: host operations (a reshape of x to [8192,1024], the three
  weight matrices laid side by side as one [1024,3072] matrix, the three biases as one [1,3072] row), a first kernel over
  16 row tiles of 512 rows (the fused projection, writing q, k, v), three reshapes back to [4,2048,1024], and a second kernel
  over 4 x 4 points (batch, query tile of 512 rows: softmax attention of that tile against the batch's keys and values).
  Both kernel bodies load whole blocks, compute, and store whole blocks; so at every boundary between two items of the
  program each buffer's contents is a named function of the launch memory: a fold of the host operations, and for a
  kernel's outputs what its write-backs leave.  This module states those contents (W0 … W4), proves that every weakly fair
  execution terminates with every unscoped buffer at W4 (run_all), and reads the seven argument arrays back to their
  launch contents.  It is generic in the float instance, so it serves the word-level reading and the ideal one alike.
-/
import proofs.«178821_j33268816675404_2_alg».proof.Proof.Gen.Kernel.Launch
import proofs.«178821_j33268816675404_2_alg».proof.Proof.Gen.Kernel.Skeleton
import proofs.«178821_j33268816675404_2_alg».proof.Proof.Gen.Kernel.Points
import proofs.«178821_j33268816675404_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the buffer contents when a kernel is entered: a parameter here, instantiated per kernel by the run below
variable (V : (c : Dev nD) → (b : Ref sig .tc) → Buf (Elt F) ((c : Thread nD τ).loc b))

/-! # The projection kernel (16 row tiles), entered at contents `V` -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not the point fetched it:
    an unfetched block has not moved (the weight matrix and the bias row are fetched once). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0

/-- What the body leaves in the q, k and v tiles' buffers: one whole-buffer store each, of the payload of the three loads. -/
def out0_3 (x0 : Vec F S512x1024 .f32) (x1 : Vec F S1024x3072 .bf16) (x2 : Vec F S1x3072 .f32) : Vec F S512x1024 .bf16 :=
  View.canon [⟨rX, k0_pay2 (View.ld x0 rX) (View.ld x1 rW) (View.ld x2 rB)⟩]
def out0_4 (x0 : Vec F S512x1024 .f32) (x1 : Vec F S1024x3072 .bf16) (x2 : Vec F S1x3072 .f32) : Vec F S512x1024 .bf16 :=
  View.canon [⟨rX, k0_pay3 (View.ld x0 rX) (View.ld x1 rW) (View.ld x2 rB)⟩]
def out0_5 (x0 : Vec F S512x1024 .f32) (x1 : Vec F S1024x3072 .bf16) (x2 : Vec F S1x3072 .f32) : Vec F S512x1024 .bf16 :=
  View.canon [⟨rX, k0_pay4 (View.ld x0 rX) (View.ld x1 rW) (View.ld x2 rB)⟩]

/-- One whole-buffer store covers the buffer. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 1000000 in
/-- The projection body on whole staging buffers: the three inputs at read contents, the three outputs at anything
    (the body also loads them before storing, and never uses what it loaded); it ends with the inputs as they were
    and each output at its one store. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-- The proof data of the projection pipeline on core `c`: the arrays as the kernel finds them; after the body at
    point `t` each input's buffer at its block and each output's at its store of the input blocks; nothing else held,
    nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

/-! # The attention kernel (4 batches x 4 query tiles), entered at contents `V` -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not: a batch's keys and values are
    fetched at its first query tile and stay for the other three. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rQ : Rect S1x512x1024 := Rect.unit (s := S1x512x1024) ![0, 0, 0] S1x512x1024.size inb_S1x512x1024_S1x512x1024_0_0_0
abbrev rK : Rect S1x2048x1024 := Rect.unit (s := S1x2048x1024) ![0, 0, 0] S1x2048x1024.size inb_S1x2048x1024_S1x2048x1024_0_0_0

/-- What the body leaves in the output tile's buffer: one whole-buffer store of the payload of the three loads. -/
def out1_3 (x0 : Vec F S1x512x1024 .bf16) (x1 : Vec F S1x2048x1024 .bf16) (x2 : Vec F S1x2048x1024 .bf16) : Vec F S1x512x1024 .f32 :=
  View.canon [⟨rQ, k1_pay1 (View.ld x0 rQ) (View.ld x1 rK) (View.ld x2 rK)⟩]

theorem cover1 (p0 : Vec F S1x512x1024 .f32) (y : S1x512x1024.Idx) :
    ∃ pc ∈ ([⟨rQ, p0⟩] : List (View.Piece (Elt F) S1x512x1024 .f32)), y ∈ pc.1.set :=
  View.cover_of_tiled [⟨rQ, p0⟩] S1x512x1024.size (by rfl) y

set_option maxHeartbeats 1000000 in
/-- The attention body on whole staging buffers: the three inputs at read contents, the output at anything (loaded
    once, unused, then stored whole). -/
theorem sound_kernel1 (c : Dev nD) (E : Set ℕ) (i : grid1.Coords)
    (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x512x1024 .f32) (harg5 : arg5.IsWhole)
    (x0 : Vec F S1x512x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

/-! # The run: the buffer contents at each boundary, a fold from the launch memory -/

/-- Core `c`'s buffers at launch. -/
abbrev W0 : Dev nD → Valuation τ sig (Elt F) := fun c b => m (c, b)
/-- After the first host stretch (the projection kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection kernel's exit: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the attention kernel's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention kernel's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer that neither kernel's windows name and no host operation writes ends as launched: every argument is one. -/
theorem W4_kept (c : Dev nD) (b : Ref sig .tc) (h1 : ∀ w, Pipeline.arrRef spec1 w ≠ b) (hh1 : b ∉ hostOps1_W)
    (h0 : ∀ w, Pipeline.arrRef spec0 w ≠ b) (hh0 : b ∉ hostOps0_W) :
    W4 m c (Proc.devRef .tc b) = m ((c : Thread nD τ).loc b) :=
  calc W4 m c (Proc.devRef .tc b)
    _ = W3 m c (Proc.devRef .tc b) := W4_of_ne m c b h1
    _ = W2 m c (Proc.devRef .tc b) := StableHlo.after_of_writes_sub hostOps1 _ hostOps1_writes hh1
    _ = W1 m c (Proc.devRef .tc b) := W2_of_ne m c b h0
    _ = W0 m c (Proc.devRef .tc b) := StableHlo.after_of_writes_sub hostOps0 _ hostOps0_writes hh0
    _ = m ((c : Thread nD τ).loc b) := rfl

theorem W4_main_arg0 (c : Dev nD) : W4 m c (Proc.devRef .tc main_arg0) = m ((c : Thread nD τ).loc main_arg0) :=
  W4_kept m c main_arg0 (by decide) (by decide) (by decide) (by decide)
theorem W4_main_arg1 (c : Dev nD) : W4 m c (Proc.devRef .tc main_arg1) = m ((c : Thread nD τ).loc main_arg1) :=
  W4_kept m c main_arg1 (by decide) (by decide) (by decide) (by decide)
theorem W4_main_arg2 (c : Dev nD) : W4 m c (Proc.devRef .tc main_arg2) = m ((c : Thread nD τ).loc main_arg2) :=
  W4_kept m c main_arg2 (by decide) (by decide) (by decide) (by decide)
theorem W4_main_arg3 (c : Dev nD) : W4 m c (Proc.devRef .tc main_arg3) = m ((c : Thread nD τ).loc main_arg3) :=
  W4_kept m c main_arg3 (by decide) (by decide) (by decide) (by decide)
theorem W4_main_arg4 (c : Dev nD) : W4 m c (Proc.devRef .tc main_arg4) = m ((c : Thread nD τ).loc main_arg4) :=
  W4_kept m c main_arg4 (by decide) (by decide) (by decide) (by decide)
theorem W4_main_arg5 (c : Dev nD) : W4 m c (Proc.devRef .tc main_arg5) = m ((c : Thread nD τ).loc main_arg5) :=
  W4_kept m c main_arg5 (by decide) (by decide) (by decide) (by decide)
theorem W4_main_arg6 (c : Dev nD) : W4 m c (Proc.devRef .tc main_arg6) = m ((c : Thread nD τ).loc main_arg6) :=
  W4_kept m c main_arg6 (by decide) (by decide) (by decide) (by decide)

/-! ## The proof data family and what rides beside the buffers -/

abbrev adm : (p : Fin 2) → (pcfgs (F := F) p).Adm := fun p => (cfgs p).toPCfg_adm
/-- Every pipeline's proof data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The kernels as items -/

set_option backward.isDefEq.respectTransparency.types false in
/-- Kernel 0 as an item of the program: entered with every unscoped buffer at the boundary's contents, left with them
    at the next boundary's. Its windows' arrays are split out of the unscoped buffers on entry and put back at what the
    write-backs leave on exit; the generator register goes in and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as an item of the program: entered with every unscoped buffer at the boundary's contents, left with them
    at the next boundary's. Its windows' arrays are split out of the unscoped buffers on entry and put back at what the
    write-backs leave on exit; the generator register goes in and comes out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four items, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters, every weakly fair execution of the program terminates, nothing
    faulting, and in every final state each unscoped buffer of each core holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

/-- The result array's buffer at the last boundary is what the attention kernel's write-backs leave. -/
theorem W4_main_v9 (c : Dev nD) : W4 m c (Proc.devRef .tc main_v9) = (dat1 (V3 m) c).arrAt 3 cfg1.N := W4_arr m c 3

end Cert.Kernel.Fr

end
-- ==== Proof.KernelIdealRun.lean ====
/-
  The run of the two-kernel program, read as values.  The program is: host operations (a reshape of x to [8192,1024], the three
  weight matrices laid side by side as one [1024,3072] matrix, the three biases as one [1,3072] row), a first kernel over
  16 row tiles of 512 rows (the fused projection, writing q, k, v), three reshapes back to [4,2048,1024], and a second kernel
  over 4 x 4 points (batch, query tile of 512 rows: softmax attention of that tile against the batch's keys and values).
  Both kernel bodies load whole blocks, compute, and store whole blocks; so at every boundary between two items of the
  program each buffer's contents is a named function of the launch memory: a fold of the host operations, and for a
  kernel's outputs what its write-backs leave.  This module states those contents (W0 … W4), proves that every weakly fair
  execution terminates with every unscoped buffer at W4 (run_all), and reads the seven argument arrays back to their
  launch contents.  It is generic in the float instance, so it serves the word-level reading and the ideal one alike.
-/
import proofs.«178821_j33268816675404_2_alg».proof.Proof.Gen.KernelIdeal.Launch
import proofs.«178821_j33268816675404_2_alg».proof.Proof.Gen.KernelIdeal.Skeleton
import proofs.«178821_j33268816675404_2_alg».proof.Proof.Gen.KernelIdeal.Points
import proofs.«178821_j33268816675404_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the buffer contents when a kernel is entered: a parameter here, instantiated per kernel by the run below
variable (V : (c : Dev nD) → (b : Ref sig .tc) → Buf (Elt F) ((c : Thread nD τ).loc b))

/-! # The projection kernel (16 row tiles), entered at contents `V` -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not the point fetched it:
    an unfetched block has not moved (the weight matrix and the bias row are fetched once). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0

/-- What the body leaves in the q, k and v tiles' buffers: one whole-buffer store each, of the payload of the three loads. -/
def out0_3 (x0 : Vec F S512x1024 .f32) (x1 : Vec F S1024x3072 .bf16) (x2 : Vec F S1x3072 .f32) : Vec F S512x1024 .bf16 :=
  View.canon [⟨rX, k0_pay2 (View.ld x0 rX) (View.ld x1 rW) (View.ld x2 rB)⟩]
def out0_4 (x0 : Vec F S512x1024 .f32) (x1 : Vec F S1024x3072 .bf16) (x2 : Vec F S1x3072 .f32) : Vec F S512x1024 .bf16 :=
  View.canon [⟨rX, k0_pay3 (View.ld x0 rX) (View.ld x1 rW) (View.ld x2 rB)⟩]
def out0_5 (x0 : Vec F S512x1024 .f32) (x1 : Vec F S1024x3072 .bf16) (x2 : Vec F S1x3072 .f32) : Vec F S512x1024 .bf16 :=
  View.canon [⟨rX, k0_pay4 (View.ld x0 rX) (View.ld x1 rW) (View.ld x2 rB)⟩]

/-- One whole-buffer store covers the buffer. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 1000000 in
/-- The projection body on whole staging buffers: the three inputs at read contents, the three outputs at anything
    (the body also loads them before storing, and never uses what it loaded); it ends with the inputs as they were
    and each output at its one store. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-- The proof data of the projection pipeline on core `c`: the arrays as the kernel finds them; after the body at
    point `t` each input's buffer at its block and each output's at its store of the input blocks; nothing else held,
    nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

/-! # The attention kernel (4 batches x 4 query tiles), entered at contents `V` -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not: a batch's keys and values are
    fetched at its first query tile and stay for the other three. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rQ : Rect S1x512x1024 := Rect.unit (s := S1x512x1024) ![0, 0, 0] S1x512x1024.size inb_S1x512x1024_S1x512x1024_0_0_0
abbrev rK : Rect S1x2048x1024 := Rect.unit (s := S1x2048x1024) ![0, 0, 0] S1x2048x1024.size inb_S1x2048x1024_S1x2048x1024_0_0_0

/-- What the body leaves in the output tile's buffer: one whole-buffer store of the payload of the three loads. -/
def out1_3 (x0 : Vec F S1x512x1024 .bf16) (x1 : Vec F S1x2048x1024 .bf16) (x2 : Vec F S1x2048x1024 .bf16) : Vec F S1x512x1024 .f32 :=
  View.canon [⟨rQ, k1_pay1 (View.ld x0 rQ) (View.ld x1 rK) (View.ld x2 rK)⟩]

theorem cover1 (p0 : Vec F S1x512x1024 .f32) (y : S1x512x1024.Idx) :
    ∃ pc ∈ ([⟨rQ, p0⟩] : List (View.Piece (Elt F) S1x512x1024 .f32)), y ∈ pc.1.set :=
  View.cover_of_tiled [⟨rQ, p0⟩] S1x512x1024.size (by rfl) y

set_option maxHeartbeats 1000000 in
/-- The attention body on whole staging buffers: the three inputs at read contents, the output at anything (loaded
    once, unused, then stored whole). -/
theorem sound_kernel1 (c : Dev nD) (E : Set ℕ) (i : grid1.Coords)
    (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x512x1024 .f32) (harg5 : arg5.IsWhole)
    (x0 : Vec F S1x512x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

/-! # The run: the buffer contents at each boundary, a fold from the launch memory -/

/-- Core `c`'s buffers at launch. -/
abbrev W0 : Dev nD → Valuation τ sig (Elt F) := fun c b => m (c, b)
/-- After the first host stretch (the projection kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection kernel's exit: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the attention kernel's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention kernel's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer that neither kernel's windows name and no host operation writes ends as launched: every argument is one. -/
theorem W4_kept (c : Dev nD) (b : Ref sig .tc) (h1 : ∀ w, Pipeline.arrRef spec1 w ≠ b) (hh1 : b ∉ hostOps1_W)
    (h0 : ∀ w, Pipeline.arrRef spec0 w ≠ b) (hh0 : b ∉ hostOps0_W) :
    W4 m c (Proc.devRef .tc b) = m ((c : Thread nD τ).loc b) :=
  calc W4 m c (Proc.devRef .tc b)
    _ = W3 m c (Proc.devRef .tc b) := W4_of_ne m c b h1
    _ = W2 m c (Proc.devRef .tc b) := StableHlo.after_of_writes_sub hostOps1 _ hostOps1_writes hh1
    _ = W1 m c (Proc.devRef .tc b) := W2_of_ne m c b h0
    _ = W0 m c (Proc.devRef .tc b) := StableHlo.after_of_writes_sub hostOps0 _ hostOps0_writes hh0
    _ = m ((c : Thread nD τ).loc b) := rfl

theorem W4_main_arg0 (c : Dev nD) : W4 m c (Proc.devRef .tc main_arg0) = m ((c : Thread nD τ).loc main_arg0) :=
  W4_kept m c main_arg0 (by decide) (by decide) (by decide) (by decide)
theorem W4_main_arg1 (c : Dev nD) : W4 m c (Proc.devRef .tc main_arg1) = m ((c : Thread nD τ).loc main_arg1) :=
  W4_kept m c main_arg1 (by decide) (by decide) (by decide) (by decide)
theorem W4_main_arg2 (c : Dev nD) : W4 m c (Proc.devRef .tc main_arg2) = m ((c : Thread nD τ).loc main_arg2) :=
  W4_kept m c main_arg2 (by decide) (by decide) (by decide) (by decide)
theorem W4_main_arg3 (c : Dev nD) : W4 m c (Proc.devRef .tc main_arg3) = m ((c : Thread nD τ).loc main_arg3) :=
  W4_kept m c main_arg3 (by decide) (by decide) (by decide) (by decide)
theorem W4_main_arg4 (c : Dev nD) : W4 m c (Proc.devRef .tc main_arg4) = m ((c : Thread nD τ).loc main_arg4) :=
  W4_kept m c main_arg4 (by decide) (by decide) (by decide) (by decide)
theorem W4_main_arg5 (c : Dev nD) : W4 m c (Proc.devRef .tc main_arg5) = m ((c : Thread nD τ).loc main_arg5) :=
  W4_kept m c main_arg5 (by decide) (by decide) (by decide) (by decide)
theorem W4_main_arg6 (c : Dev nD) : W4 m c (Proc.devRef .tc main_arg6) = m ((c : Thread nD τ).loc main_arg6) :=
  W4_kept m c main_arg6 (by decide) (by decide) (by decide) (by decide)

/-! ## The proof data family and what rides beside the buffers -/

abbrev adm : (p : Fin 2) → (pcfgs (F := F) p).Adm := fun p => (cfgs p).toPCfg_adm
/-- Every pipeline's proof data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The kernels as items -/

set_option backward.isDefEq.respectTransparency.types false in
/-- Kernel 0 as an item of the program: entered with every unscoped buffer at the boundary's contents, left with them
    at the next boundary's. Its windows' arrays are split out of the unscoped buffers on entry and put back at what the
    write-backs leave on exit; the generator register goes in and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as an item of the program: entered with every unscoped buffer at the boundary's contents, left with them
    at the next boundary's. Its windows' arrays are split out of the unscoped buffers on entry and put back at what the
    write-backs leave on exit; the generator register goes in and comes out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four items, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters, every weakly fair execution of the program terminates, nothing
    faulting, and in every final state each unscoped buffer of each core holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

/-- The result array's buffer at the last boundary is what the attention kernel's write-backs leave. -/
theorem W4_main_v9 (c : Dev nD) : W4 m c (Proc.devRef .tc main_v9) = (dat1 (V3 m) c).arrAt 3 cfg1.N := W4_arr m c 3

end Cert.KernelIdeal.Fr

end
-- ==== Proof.AttnSpec.lean ====
/-
  The function both programs compute, stated once over the extended reals and over literal shapes, with no
  program in sight.  For a batch `bb`, a query row `n` and an output column `d`:

    q, k, v   = x · W + b                       (three affine projections of the rows of `x`)
    s j       = (∑ e, q n e · k j e) · 2⁻⁵       (scaled scores of row `n` against every key row `j`)
    w j       = exp (s j − max s) / ∑ j', exp (s j' − max s)
    out n d   = ∑ j, w j · v j d

  The maximum is the fold of `max` from `⊥` over the 2048 keys, the quotient is the ideal float quotient.
-/
import Idealize.ShloMosaic.PureOps.Ideal
import Idealize.ShloMosaic.Lib.ValueIdx

noncomputable section

namespace Cert.Attn

open Idealize.ShloMosaic Idealize.ShloMosaic.ValueIdx

/-- The score scale `1 / √1024 = 2⁻⁵`. -/
def scale : EReal := ((1 / 32 : ℝ) : EReal)

/-- One affine projection at (batch, row, column): the row of `x` against the column of `W`, plus the bias. -/
def proj (x : FVec Ideal ⟨3, ![4, 2048, 1024]⟩ .f32) (W : FVec Ideal ⟨2, ![1024, 1024]⟩ .f32)
    (b : FVec Ideal ⟨1, ![1024]⟩ .f32) (bb : Fin 4) (n : Fin 2048) (e : Fin 1024) : EReal :=
  (∑ d : Fin 1024, x (ix3 bb n d) * W (ix2 d e)) + b (ix1 e)

/-- The scaled score of query row `n` against key row `j`, inside batch `bb`. -/
def score (q k : Fin 4 → Fin 2048 → Fin 1024 → EReal) (bb : Fin 4) (n j : Fin 2048) : EReal :=
  (∑ e : Fin 1024, q bb n e * k bb j e) * scale

/-- A row's maximum: the fold of `max` from `⊥` over its 2048 entries. -/
def rowMax (s : Fin 2048 → EReal) : EReal := (Finset.univ : Finset (Fin 2048)).fold max ⊥ s

/-- The unnormalised softmax weight of entry `j` of a row. -/
def expShift (s : Fin 2048 → EReal) (j : Fin 2048) : EReal := Ideal.exp (s j - rowMax s)

/-- The softmax weight of entry `j` of a row. -/
def weight (s : Fin 2048 → EReal) (j : Fin 2048) : EReal :=
  Ideal.div (expShift s j) (∑ j' : Fin 2048, expShift s j')

/-- Attention over given projections, at (batch, query row, output column). -/
def attnOut (q k v : Fin 4 → Fin 2048 → Fin 1024 → EReal) (bb : Fin 4) (n : Fin 2048) (d : Fin 1024) : EReal :=
  ∑ j : Fin 2048, weight (score q k bb n) j * v bb j d

/-- The whole function of the seven argument arrays, at (batch, query row, output column). -/
def attnAt (x : FVec Ideal ⟨3, ![4, 2048, 1024]⟩ .f32)
    (Wq : FVec Ideal ⟨2, ![1024, 1024]⟩ .f32) (bq : FVec Ideal ⟨1, ![1024]⟩ .f32)
    (Wk : FVec Ideal ⟨2, ![1024, 1024]⟩ .f32) (bk : FVec Ideal ⟨1, ![1024]⟩ .f32)
    (Wv : FVec Ideal ⟨2, ![1024, 1024]⟩ .f32) (bv : FVec Ideal ⟨1, ![1024]⟩ .f32)
    (bb : Fin 4) (n : Fin 2048) (d : Fin 1024) : EReal :=
  attnOut (proj x Wq bq) (proj x Wk bk) (proj x Wv bv) bb n d

/-- The same as one array over `[4, 2048, 1024]`. -/
def attn (x : FVec Ideal ⟨3, ![4, 2048, 1024]⟩ .f32)
    (Wq : FVec Ideal ⟨2, ![1024, 1024]⟩ .f32) (bq : FVec Ideal ⟨1, ![1024]⟩ .f32)
    (Wk : FVec Ideal ⟨2, ![1024, 1024]⟩ .f32) (bk : FVec Ideal ⟨1, ![1024]⟩ .f32)
    (Wv : FVec Ideal ⟨2, ![1024, 1024]⟩ .f32) (bv : FVec Ideal ⟨1, ![1024]⟩ .f32) :
    FVec Ideal ⟨3, ![4, 2048, 1024]⟩ .f32 :=
  fun i => attnAt x Wq bq Wk bk Wv bv (i 0) (i 1) (i 2)

theorem attn_ix3 (x : FVec Ideal ⟨3, ![4, 2048, 1024]⟩ .f32)
    (Wq : FVec Ideal ⟨2, ![1024, 1024]⟩ .f32) (bq : FVec Ideal ⟨1, ![1024]⟩ .f32)
    (Wk : FVec Ideal ⟨2, ![1024, 1024]⟩ .f32) (bk : FVec Ideal ⟨1, ![1024]⟩ .f32)
    (Wv : FVec Ideal ⟨2, ![1024, 1024]⟩ .f32) (bv : FVec Ideal ⟨1, ![1024]⟩ .f32)
    (bb : Fin 4) (n : Fin 2048) (d : Fin 1024) :
    attn x Wq bq Wk bk Wv bv (ix3 bb n d) = attnAt x Wq bq Wk bk Wv bv bb n d := rfl

end Cert.Attn

end
-- ==== Proof.ProjBody.lean ====
/-
  The projection body read at an index, at the ideal values.

  The body rounds its `[512, 1024]` block of `x` to bf16 (the identity at the ideal values), multiplies it
  into the `[1024, 3072]` matrix of the three weight matrices side by side, starting from a zero
  accumulator, adds the `[1, 3072]` row of the three biases to every row, and stores the three column
  blocks of width 1024 at offsets 0, 1024 and 2048.  So every stored entry is one affine form

      (∑ d, x r d * W d c) + b c

  at a column `c` of the wide matrix: `c = e`, `e + 1024` or `e + 2048` for the three stores.
-/
import proofs.«178821_j33268816675404_2_alg».proof.Proof.Gen.KernelIdeal.Skeleton
import proofs.«178821_j33268816675404_2_alg».proof.Proof.AttnSpec
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx Idealize.SL.Sem

/-! ## The operand indices of the `[512, 1024] × [1024, 3072]` product -/

theorem projDot_lhs_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl

theorem projDot_lhs_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q

theorem projDot_rhs_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q

theorem projDot_rhs_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- The product into a zero accumulator at `(r, c)`: row `r` of the left operand against column `c` of the right one. -/
theorem projMatmul_apply (A : FVec Ideal S512x1024 .bf16) (B : FVec Ideal S1024x3072 .bf16) (r : Fin 512) (c : Fin 3072) :
    matmul dot_S512x1024_S1024x3072_S512x3072_1_0_0_1_n_n none A B (constant S512x3072 .f32 0x00000000#32) (ix2 r c)
      = ∑ d : Fin 1024, A (ix2 r d) * B (ix2 d c) := by
  simp only [matmul]
  rw [Ideal.matmul_constant_zero_apply,
    ← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 r c)
      ((ValueIdx.contrEquiv1 dot_S512x1024_S1024x3072_S512x3072_1_0_0_1_n_n 1024 rfl rfl).symm k) = ix2 r k :=
    funext fun a => Fin.ext (by
      match a with
      | ⟨0, _⟩ => exact projDot_lhs_0 _ _
      | ⟨1, _⟩ => exact (projDot_lhs_1 _ _).trans hk)
  have er : dot_S512x1024_S1024x3072_S512x3072_1_0_0_1_n_n.rhsIdx (ix2 r c)
      ((ValueIdx.contrEquiv1 dot_S512x1024_S1024x3072_S512x3072_1_0_0_1_n_n 1024 rfl rfl).symm k) = ix2 k c :=
    funext fun a => Fin.ext (by
      match a with
      | ⟨0, _⟩ => exact (projDot_rhs_0 _ _).trans hk
      | ⟨1, _⟩ => exact projDot_rhs_1 _ _)
  rw [el, er]

/-- The wide affine form the three stores cut: at `(r, c)`, row `r` of `x` against column `c` of the weights, plus the
    bias at `c`. -/
theorem k0_pay1_apply (v0 : FVec Ideal S512x1024 .f32) (v3 : FVec Ideal S1024x3072 .bf16) (v6 : FVec Ideal S1x3072 .f32)
    (r : Fin 512) (c : Fin 3072) :
    k0_pay1 (F := Ideal) v0 v3 v6 (ix2 r c)
      = (∑ d : Fin 1024, v0 (ix2 r d) * v3 (ix2 d c)) + v6 (ix2 (0 : Fin 1) c) := by
  unfold k0_pay1
  simp only [shapeCast_self]
  rw [addf_apply, projMatmul_apply, broadcastTo_1b_ab_apply]
  rfl

/-- The first store: columns `0 … 1023` of the wide form. -/
theorem k0_pay2_apply (v0 : FVec Ideal S512x1024 .f32) (v3 : FVec Ideal S1024x3072 .bf16) (v6 : FVec Ideal S1x3072 .f32)
    (r : Fin 512) (e : Fin 1024) :
    k0_pay2 (F := Ideal) v0 v3 v6 (ix2 r e)
      = (∑ d : Fin 1024, v0 (ix2 r d) * v3 (ix2 d (⟨e.val, by omega⟩ : Fin 3072)))
        + v6 (ix2 (0 : Fin 1) (⟨e.val, by omega⟩ : Fin 3072)) := by
  unfold k0_pay2
  rw [truncf_apply]
  refine (slice2_axis1_apply 0 (k0_pay1 (F := Ideal) v0 v3 v6) _ r e (⟨e.val, by omega⟩ : Fin 3072)
    (Nat.zero_add _).symm).trans ?_
  exact k0_pay1_apply v0 v3 v6 r _

/-- The second store: columns `1024 … 2047`. -/
theorem k0_pay3_apply (v0 : FVec Ideal S512x1024 .f32) (v3 : FVec Ideal S1024x3072 .bf16) (v6 : FVec Ideal S1x3072 .f32)
    (r : Fin 512) (e : Fin 1024) :
    k0_pay3 (F := Ideal) v0 v3 v6 (ix2 r e)
      = (∑ d : Fin 1024, v0 (ix2 r d) * v3 (ix2 d (⟨e.val + 1024, by omega⟩ : Fin 3072)))
        + v6 (ix2 (0 : Fin 1) (⟨e.val + 1024, by omega⟩ : Fin 3072)) := by
  unfold k0_pay3
  rw [truncf_apply]
  refine (slice2_axis1_apply 1024 (k0_pay1 (F := Ideal) v0 v3 v6) _ r e (⟨e.val + 1024, by omega⟩ : Fin 3072)
    (Nat.add_comm _ _)).trans ?_
  exact k0_pay1_apply v0 v3 v6 r _

/-- The third store: columns `2048 … 3071`. -/
theorem k0_pay4_apply (v0 : FVec Ideal S512x1024 .f32) (v3 : FVec Ideal S1024x3072 .bf16) (v6 : FVec Ideal S1x3072 .f32)
    (r : Fin 512) (e : Fin 1024) :
    k0_pay4 (F := Ideal) v0 v3 v6 (ix2 r e)
      = (∑ d : Fin 1024, v0 (ix2 r d) * v3 (ix2 d (⟨e.val + 2048, by omega⟩ : Fin 3072)))
        + v6 (ix2 (0 : Fin 1) (⟨e.val + 2048, by omega⟩ : Fin 3072)) := by
  unfold k0_pay4
  rw [truncf_apply]
  refine (slice2_axis1_apply 2048 (k0_pay1 (F := Ideal) v0 v3 v6) _ r e (⟨e.val + 2048, by omega⟩ : Fin 3072)
    (Nat.add_comm _ _)).trans ?_
  exact k0_pay1_apply v0 v3 v6 r _

end Cert.KernelIdeal.BodyValue

end
-- ==== Proof.ProjArrays.lean ====
/-
  The projection kernel's three output arrays as whole-array functions of the arrays it is entered with.  Point `t` of its
  16-point grid reads rows `t·512 … t·512+511` of X : [8192,1024], the whole stacked weight matrix Wc : [1024,3072] and the
  whole stacked bias row Bc : [1,3072], and writes the same rows of q, k, v : [8192,1024]; entry (R, e) of q is
  ∑ d, X(R,d)·Wc(d,e) + Bc(0,e), of k the same at column e+1024, of v at column e+2048.  The 16 row tiles cover each
  output array, so after the kernel each array IS that function.
-/
import proofs.«178821_j33268816675404_2_alg».proof.Proof.KernelIdealRun
import proofs.«178821_j33268816675404_2_alg».proof.Proof.ProjBody
import Idealize.ShloMosaic.Lib.Pipeline.Value
import Idealize.ShloMosaic.Lib.ValueIdx

noncomputable section

namespace Cert.KernelIdeal.Val0

open Cert.KernelIdeal Cert.KernelIdeal.Gen Cert.KernelIdeal.Fr Cert.KernelIdeal.BodyValue
open Idealize.ShloMosaic Idealize.ShloMosaic.ValueIdx Idealize.ShloMosaic.TcCoe Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: the x tile and the three output tiles move together along the rows;
    the weight matrix and the bias row stay at block (0,0); no window moves along the columns. -/
theorem idx_facts0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_4.index t (0 : Fin 2) = win0_3.index t (0 : Fin 2) ∧ win0_5.index t (0 : Fin 2) = win0_3.index t (0 : Fin 2)
    ∧ win0_3.index t (1 : Fin 2) = 0 ∧ win0_4.index t (1 : Fin 2) = 0 ∧ win0_5.index t (1 : Fin 2) = 0 ∧ win0_3.index t (0 : Fin 2) ≤ 15 :=
  (by decide +kernel : ∀ t : Fin grid0.N, _)

/-- Every row tile is some point's. -/
theorem idx_onto0 : ∀ q0 : Fin 16, ∃ t : Fin cfg0.N, win0_3.index t (0 : Fin 2) = q0.val :=
  (by decide +kernel : ∀ q0 : Fin 16, ∃ t : Fin grid0.N, win0_3.index t (0 : Fin 2) = q0.val)

/-- Row `R` of X against column `col` of the stacked weights, plus the stacked bias at that column. -/
def projAt (X : FVec Ideal S8192x1024 .f32) (Wc : FVec Ideal S1024x3072 .bf16) (Bc : FVec Ideal S1x3072 .f32) (R : Fin 8192) (col : Fin 3072) : EReal :=
  (∑ d : Fin 1024, X (ix2 R d) * Wc (ix2 d col)) + Bc (ix2 (0 : Fin 1) col)

/-- The columns of the stacked matrix that hold q, k and v. -/
def colq (e : Fin 1024) : Fin 3072 := ⟨e.val, by omega⟩
def colk (e : Fin 1024) : Fin 3072 := ⟨e.val + 1024, by omega⟩
def colv (e : Fin 1024) : Fin 3072 := ⟨e.val + 2048, by omega⟩

/-- One projection as a whole [8192,1024] array. -/
def Gproj (col : Fin 1024 → Fin 3072) (X : FVec Ideal S8192x1024 .f32) (Wc : FVec Ideal S1024x3072 .bf16) (Bc : FVec Ideal S1x3072 .f32) :
    FVec Ideal S8192x1024 .bf16 := fun i => projAt X Wc Bc (i 0) (col (i 1))

/-- The x tile at point `t`: rows `t·512 + r` of X. -/
theorem read0 (c : Dev nD) (t : Fin cfg0.N) (r : Fin 512) (d : Fin 1024) (R : Fin 8192) (hR : R.val = win0_3.index t (0 : Fin 2) * 512 + r.val) :
    iblk0 V c 0 t (ix2 r d) = V c main_v0 (ix2 R d) := by
  obtain ⟨e0, e1, -⟩ := idx_facts0 t
  show V c main_v0 (((cfg0.win 0).blk t).view.emb (ix2 r d)) = V c main_v0 (ix2 R d)
  refine congrArg _ (funext fun a => Fin.ext ?_)
  match a with
  | ⟨0, _⟩ => show win0_0.index t (0 : Fin 2) * 512 + 1 * r.val = R.val; omega
  | ⟨1, _⟩ => show win0_0.index t (1 : Fin 2) * 1024 + 1 * d.val = d.val; omega

/-- The weight block at any point is the whole stacked matrix. -/
theorem read1 (c : Dev nD) (t : Fin cfg0.N) (d : Fin 1024) (col : Fin 3072) : iblk0 V c 1 t (ix2 d col) = V c main_v2 (ix2 d col) := by
  obtain ⟨-, -, e2, e3, -⟩ := idx_facts0 t
  show V c main_v2 (((cfg0.win 1).blk t).view.emb (ix2 d col)) = V c main_v2 (ix2 d col)
  refine congrArg _ (funext fun a => Fin.ext ?_)
  match a with
  | ⟨0, _⟩ => show win0_1.index t (0 : Fin 2) * 1024 + 1 * d.val = d.val; omega
  | ⟨1, _⟩ => show win0_1.index t (1 : Fin 2) * 3072 + 1 * col.val = col.val; omega

/-- The bias block at any point is the whole stacked bias row. -/
theorem read2 (c : Dev nD) (t : Fin cfg0.N) (col : Fin 3072) : iblk0 V c 2 t (ix2 (0 : Fin 1) col) = V c main_v4 (ix2 (0 : Fin 1) col) := by
  obtain ⟨-, -, -, -, e4, e5, -⟩ := idx_facts0 t
  show V c main_v4 (((cfg0.win 2).blk t).view.emb (ix2 (0 : Fin 1) col)) = V c main_v4 (ix2 (0 : Fin 1) col)
  refine congrArg _ (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 3072 + 1 * col.val = col.val; omega

/-- An element (r, e) of output block `t` of window 3 sits at row `t·512 + r`, column `e` of its array. -/
theorem emb3 (t : Fin cfg0.N) (r : Fin 512) (e : Fin 1024) (R : Fin 8192) (hR : R.val = win0_3.index t (0 : Fin 2) * 512 + r.val) :
    ((cfg0.win 3).blk t).view.emb (ix2 r e) = (ix2 R e : S8192x1024.Idx) := by
  obtain ⟨e0, e1, e2, e3, e4, e5, e6, e7, e8, e9, e10, e11⟩ := idx_facts0 t
  funext a; apply Fin.ext
  match a with
  | ⟨0, _⟩ => show win0_3.index t (0 : Fin 2) * 512 + 1 * r.val = R.val; omega
  | ⟨1, _⟩ => show win0_3.index t (1 : Fin 2) * 1024 + 1 * e.val = e.val; omega

/-- What point `t` writes back through window 3 is block `t` of the projection of the whole arrays. -/
theorem flushed3_eq (c : Dev nD) (t : Fin cfg0.N) :
    (dat0 V c).flushed 3 t = ((cfg0.win 3).blk t).view.read (Elt Ideal) (Gproj colq (V c main_v0) (V c main_v2) (V c main_v4)) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x3072) hz, View.ld_unit_zero (S := S1x3072) hz]
  funext y
  obtain ⟨r, e, rfl⟩ : ∃ (r : Fin 512) (e : Fin 1024), y = ix2 r e := ⟨y 0, y 1, eq_ix2 y⟩
  obtain ⟨e0, e1, e2, e3, e4, e5, e6, e7, e8, e9, e10, e11⟩ := idx_facts0 t
  have hRlt : win0_3.index t (0 : Fin 2) * 512 + r.val < 8192 := by have := r.isLt; omega
  show k0_pay2 (iblk0 V c 0 t) (iblk0 V c 1 t) (iblk0 V c 2 t) (ix2 r e)
    = Gproj colq (V c main_v0) (V c main_v2) (V c main_v4) (((cfg0.win 3).blk t).view.emb (ix2 r e))
  rw [emb3 t r e ⟨_, hRlt⟩ rfl]
  refine (k0_pay2_apply _ _ _ r e).trans ?_
  show _ = projAt (V c main_v0) (V c main_v2) (V c main_v4) ⟨_, hRlt⟩ (colq e)
  unfold projAt
  simp only [read0 V c t r _ ⟨_, hRlt⟩ rfl, read1 V c t, read2 V c t]
  rfl

/-- An index of the array is in point `t`'s block of window 3 iff each coordinate is in the block's range on its axis. -/
theorem mem_blk3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v5_0).slice (win0_3.rect t)).set ↔ _
  rw [View.set_slice_whole, Rect.mem_set_unit]
  exact Iff.rfl

/-- Every index of the array is in the block of the point its row tile names. -/
theorem cover3 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ := idx_onto0 ⟨(i 0).val / 512, by omega⟩
  obtain ⟨e0, e1, e2, e3, e4, e5, e6, e7, e8, e9, e10, e11⟩ := idx_facts0 t
  have ht' : win0_3.index t (0 : Fin 2) = (i 0).val / 512 := ht
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The array window 3 writes, after the kernel: the projection of the whole entry arrays. -/
theorem final3 (c : Dev nD) : (dat0 V c).arrAt 3 cfg0.N = Gproj colq (V c main_v0) (V c main_v2) (V c main_v4) :=
  (dat0 V c).arrAt_eq_of_cover 3 _ (fun t _ => flushed3_eq V c t) cover3

/-- An element (r, e) of output block `t` of window 4 sits at row `t·512 + r`, column `e` of its array. -/
theorem emb4 (t : Fin cfg0.N) (r : Fin 512) (e : Fin 1024) (R : Fin 8192) (hR : R.val = win0_3.index t (0 : Fin 2) * 512 + r.val) :
    ((cfg0.win 4).blk t).view.emb (ix2 r e) = (ix2 R e : S8192x1024.Idx) := by
  obtain ⟨e0, e1, e2, e3, e4, e5, e6, e7, e8, e9, e10, e11⟩ := idx_facts0 t
  funext a; apply Fin.ext
  match a with
  | ⟨0, _⟩ => show win0_4.index t (0 : Fin 2) * 512 + 1 * r.val = R.val; omega
  | ⟨1, _⟩ => show win0_4.index t (1 : Fin 2) * 1024 + 1 * e.val = e.val; omega

/-- What point `t` writes back through window 4 is block `t` of the projection of the whole arrays. -/
theorem flushed4_eq (c : Dev nD) (t : Fin cfg0.N) :
    (dat0 V c).flushed 4 t = ((cfg0.win 4).blk t).view.read (Elt Ideal) (Gproj colk (V c main_v0) (V c main_v2) (V c main_v4)) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x3072) hz, View.ld_unit_zero (S := S1x3072) hz]
  funext y
  obtain ⟨r, e, rfl⟩ : ∃ (r : Fin 512) (e : Fin 1024), y = ix2 r e := ⟨y 0, y 1, eq_ix2 y⟩
  obtain ⟨e0, e1, e2, e3, e4, e5, e6, e7, e8, e9, e10, e11⟩ := idx_facts0 t
  have hRlt : win0_3.index t (0 : Fin 2) * 512 + r.val < 8192 := by have := r.isLt; omega
  show k0_pay3 (iblk0 V c 0 t) (iblk0 V c 1 t) (iblk0 V c 2 t) (ix2 r e)
    = Gproj colk (V c main_v0) (V c main_v2) (V c main_v4) (((cfg0.win 4).blk t).view.emb (ix2 r e))
  rw [emb4 t r e ⟨_, hRlt⟩ rfl]
  refine (k0_pay3_apply _ _ _ r e).trans ?_
  show _ = projAt (V c main_v0) (V c main_v2) (V c main_v4) ⟨_, hRlt⟩ (colk e)
  unfold projAt
  simp only [read0 V c t r _ ⟨_, hRlt⟩ rfl, read1 V c t, read2 V c t]
  rfl

/-- An index of the array is in point `t`'s block of window 4 iff each coordinate is in the block's range on its axis. -/
theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v5_1).slice (win0_4.rect t)).set ↔ _
  rw [View.set_slice_whole, Rect.mem_set_unit]
  exact Iff.rfl

/-- Every index of the array is in the block of the point its row tile names. -/
theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ := idx_onto0 ⟨(i 0).val / 512, by omega⟩
  obtain ⟨e0, e1, e2, e3, e4, e5, e6, e7, e8, e9, e10, e11⟩ := idx_facts0 t
  have ht' : win0_3.index t (0 : Fin 2) = (i 0).val / 512 := ht
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The array window 4 writes, after the kernel: the projection of the whole entry arrays. -/
theorem final4 (c : Dev nD) : (dat0 V c).arrAt 4 cfg0.N = Gproj colk (V c main_v0) (V c main_v2) (V c main_v4) :=
  (dat0 V c).arrAt_eq_of_cover 4 _ (fun t _ => flushed4_eq V c t) cover4

/-- An element (r, e) of output block `t` of window 5 sits at row `t·512 + r`, column `e` of its array. -/
theorem emb5 (t : Fin cfg0.N) (r : Fin 512) (e : Fin 1024) (R : Fin 8192) (hR : R.val = win0_3.index t (0 : Fin 2) * 512 + r.val) :
    ((cfg0.win 5).blk t).view.emb (ix2 r e) = (ix2 R e : S8192x1024.Idx) := by
  obtain ⟨e0, e1, e2, e3, e4, e5, e6, e7, e8, e9, e10, e11⟩ := idx_facts0 t
  funext a; apply Fin.ext
  match a with
  | ⟨0, _⟩ => show win0_5.index t (0 : Fin 2) * 512 + 1 * r.val = R.val; omega
  | ⟨1, _⟩ => show win0_5.index t (1 : Fin 2) * 1024 + 1 * e.val = e.val; omega

/-- What point `t` writes back through window 5 is block `t` of the projection of the whole arrays. -/
theorem flushed5_eq (c : Dev nD) (t : Fin cfg0.N) :
    (dat0 V c).flushed 5 t = ((cfg0.win 5).blk t).view.read (Elt Ideal) (Gproj colv (V c main_v0) (V c main_v2) (V c main_v4)) := by
  show (cfg0.win 5).cut (grid0.coords t) ((dat0 V c).after 5 t) = _
  rw [after0_5]
  unfold out0_5
  rw [View.canon_unit_zero hz]
  simp only [View.ld_unit_zero (S := S512x1024) hz, View.ld_unit_zero (S := S1024x3072) hz, View.ld_unit_zero (S := S1x3072) hz]
  funext y
  obtain ⟨r, e, rfl⟩ : ∃ (r : Fin 512) (e : Fin 1024), y = ix2 r e := ⟨y 0, y 1, eq_ix2 y⟩
  obtain ⟨e0, e1, e2, e3, e4, e5, e6, e7, e8, e9, e10, e11⟩ := idx_facts0 t
  have hRlt : win0_3.index t (0 : Fin 2) * 512 + r.val < 8192 := by have := r.isLt; omega
  show k0_pay4 (iblk0 V c 0 t) (iblk0 V c 1 t) (iblk0 V c 2 t) (ix2 r e)
    = Gproj colv (V c main_v0) (V c main_v2) (V c main_v4) (((cfg0.win 5).blk t).view.emb (ix2 r e))
  rw [emb5 t r e ⟨_, hRlt⟩ rfl]
  refine (k0_pay4_apply _ _ _ r e).trans ?_
  show _ = projAt (V c main_v0) (V c main_v2) (V c main_v4) ⟨_, hRlt⟩ (colv e)
  unfold projAt
  simp only [read0 V c t r _ ⟨_, hRlt⟩ rfl, read1 V c t, read2 V c t]
  rfl

/-- An index of the array is in point `t`'s block of window 5 iff each coordinate is in the block's range on its axis. -/
theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v5_2).slice (win0_5.rect t)).set ↔ _
  rw [View.set_slice_whole, Rect.mem_set_unit]
  exact Iff.rfl

/-- Every index of the array is in the block of the point its row tile names. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  obtain ⟨t, ht⟩ := idx_onto0 ⟨(i 0).val / 512, by omega⟩
  obtain ⟨e0, e1, e2, e3, e4, e5, e6, e7, e8, e9, e10, e11⟩ := idx_facts0 t
  have ht' : win0_3.index t (0 : Fin 2) = (i 0).val / 512 := ht
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The array window 5 writes, after the kernel: the projection of the whole entry arrays. -/
theorem final5 (c : Dev nD) : (dat0 V c).arrAt 5 cfg0.N = Gproj colv (V c main_v0) (V c main_v2) (V c main_v4) :=
  (dat0 V c).arrAt_eq_of_cover 5 _ (fun t _ => flushed5_eq V c t) cover5

end Cert.KernelIdeal.Val0

end
-- ==== Proof.LibMergeLeadingAxes.lean ====
/-
  Two general layout readings and one host-operation reading.
  * A row-major `[a, b, c]` array cast to `[n, c]` with `n = a·b` (the two leading axes merged): entry `(R, k)` is the
    operand at `(i, j, k)` whenever `R = i·b + j`; and the cast back, `[n, c]` to `[a, b, c]`.
  * A host operation over a literal family of three operand buffers (a three-way concatenate) results in its function of
    the three operands' contents, each read at its own buffer.
-/
import Idealize.ShloMosaic.Lib.Pipeline.Value
import Idealize.ShloMosaic.Lib.ValueIdx
import Idealize.ShloMosaic.Lib.StableHlo.Run

noncomputable section

namespace Cert.LibMergeLeadingAxes

open Idealize.ShloMosaic Idealize.ShloMosaic.ValueIdx Idealize.ShloMosaic.StableHlo

variable {α : Type}

/-- `[a, b, c]` cast to `[n, c]`: entry `(R, k)` with `R = i·b + j` is the operand's `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (R : Fin n)
    (hR : R.val = i.val * b + j.val) : shapeCast ⟨2, ![n, c]⟩ x h (ix2 R k) = x (ix3 i j k) :=
  shapeCast_apply x h _ _ (by
    rw [Shape.rowMajor_val_three, Shape.rowMajor_val_two]
    show (i.val * b + j.val) * c + k.val = R.val * c + k.val
    rw [hR])

/-- `[n, c]` cast to `[a, b, c]`: entry `(i, j, k)` is the operand's `(R, k)` with `R = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (R : Fin n)
    (hR : R.val = i.val * b + j.val) : shapeCast ⟨3, ![a, b, c]⟩ x h (ix3 i j k) = x (ix2 R k) :=
  shapeCast_apply x h _ _ (by
    rw [Shape.rowMajor_val_three, Shape.rowMajor_val_two]
    show R.val * c + k.val = (i.val * b + j.val) * c + k.val
    rw [hR])

variable {τ : Topo} {sig : RefSig} {Val : EltTy → Type}

/-- A host operation over three literal operand buffers: its result is its function of the three contents, each at its
    own buffer. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibMergeLeadingAxes

end
-- ==== Proof.HostReads.lean ====
/-
  What the host operations around the two kernels leave in the buffers the kernels read, at the ideal reading, index by index.
  Before the projection kernel: X = x with its two leading axes merged ([4,2048,1024] as [8192,1024], row R = b·2048 + n);
  Wc = the three weight matrices side by side ([1024,3072]: columns 0..1023 are Wq, 1024..2047 Wk, 2048..3071 Wv; the
  change of float format is the identity here); Bc = the three biases end to end, as one row [1,3072].
  Between the kernels: q, k, v go back from [8192,1024] to [4,2048,1024].
-/
import proofs.«178821_j33268816675404_2_alg».proof.Proof.KernelIdealRun
import proofs.«178821_j33268816675404_2_alg».proof.Proof.ProjArrays
import proofs.«178821_j33268816675404_2_alg».proof.Proof.LibMergeLeadingAxes
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostVal

open Cert.KernelIdeal Cert.KernelIdeal.Gen Cert.KernelIdeal.Fr Cert.KernelIdeal.Val0 Cert.LibMergeLeadingAxes
open Idealize.ShloMosaic Idealize.ShloMosaic.ValueIdx Idealize.ShloMosaic.TcCoe Idealize.SL.Sem Idealize.ShloMosaic.StableHlo

variable (m : (ℓ : Loc nD τ sig) → Buf (Elt Ideal) ℓ)

/-! ## The buffers as terms of the arguments -/

theorem X_eq (c : Dev nD) : Fr.V1 m c main_v0 = shapeCast S8192x1024 (m ((c.tc : Thread nD τ).loc main_arg0)) Facts₀.shapeCasts_S4x2048x1024_S8192x1024 := by
  show StableHlo.after hostOps0 (W0 m c) (Proc.devRef .tc main_v0) = _
  after_results
  rfl

theorem Wc_eq (c : Dev nD) : (Fr.V1 m c main_v2 : FVec Ideal S1024x3072 .bf16)
    = truncf (F := Ideal) .bf16 (concatenate S1024x3072 1 [⟨S1024x1024, m ((c.tc : Thread nD τ).loc main_arg1)⟩, ⟨S1024x1024, m ((c.tc : Thread nD τ).loc main_arg3)⟩,
        ⟨S1024x1024, m ((c.tc : Thread nD τ).loc main_arg5)⟩] Facts₀.concatenates_S1024x1024_S1024x1024_S1024x1024_S1024x3072_d1) Facts₀.bitsLt_bf16_f32 := by
  show StableHlo.after hostOps0 (W0 m c) (Proc.devRef .tc main_v2) = _
  simp only [after_cons, after_nil]
  rw [reshape_result_ne]; rotate_left; decide
  rw [nary_result_ne]; rotate_left; decide
  rw [unary_result, nary3_result]
  repeat (first
    | (rw [reshape_result_ne]; rotate_left; decide)
    | (rw [unary_result_ne]; rotate_left; decide)
    | (rw [nary_result_ne]; rotate_left; decide))
  rfl

theorem Bc_eq (c : Dev nD) : (Fr.V1 m c main_v4 : FVec Ideal S1x3072 .f32)
    = shapeCast S1x3072 (concatenate S3072 0 [⟨S1024, m ((c.tc : Thread nD τ).loc main_arg2)⟩, ⟨S1024, m ((c.tc : Thread nD τ).loc main_arg4)⟩,
        ⟨S1024, m ((c.tc : Thread nD τ).loc main_arg6)⟩] Facts₀.concatenates_S1024_S1024_S1024_S3072_d0) Facts₀.shapeCasts_S3072_S1x3072 := by
  show StableHlo.after hostOps0 (W0 m c) (Proc.devRef .tc main_v4) = _
  simp only [after_cons, after_nil]
  rw [reshape_result, nary3_result]
  repeat (first
    | (rw [reshape_result_ne]; rotate_left; decide)
    | (rw [unary_result_ne]; rotate_left; decide)
    | (rw [nary_result_ne]; rotate_left; decide))
  rfl

theorem q_eq (c : Dev nD) : Fr.V3 m c main_v6 = shapeCast S4x2048x1024 (W2 m c (Proc.devRef .tc main_v5_0)) Facts₀.shapeCasts_S8192x1024_S4x2048x1024 := by
  show StableHlo.after hostOps1 (W2 m c) (Proc.devRef .tc main_v6) = _
  after_results
  rfl
theorem k_eq (c : Dev nD) : Fr.V3 m c main_v7 = shapeCast S4x2048x1024 (W2 m c (Proc.devRef .tc main_v5_1)) Facts₀.shapeCasts_S8192x1024_S4x2048x1024 := by
  show StableHlo.after hostOps1 (W2 m c) (Proc.devRef .tc main_v7) = _
  after_results
  rfl
theorem v_eq (c : Dev nD) : Fr.V3 m c main_v8 = shapeCast S4x2048x1024 (W2 m c (Proc.devRef .tc main_v5_2)) Facts₀.shapeCasts_S8192x1024_S4x2048x1024 := by
  show StableHlo.after hostOps1 (W2 m c) (Proc.devRef .tc main_v8) = _
  after_results
  rfl

/-! ## The same, read at an index -/

/-- Row `b·2048 + n` of X is row `(b, n)` of x. -/
theorem X_apply (c : Dev nD) (bb : Fin 4) (n : Fin 2048) (d : Fin 1024) (R : Fin 8192) (hR : R.val = bb.val * 2048 + n.val) :
    Fr.V1 m c main_v0 (ix2 R d) = m ((c.tc : Thread nD τ).loc main_arg0) (ix3 bb n d) := by
  rw [X_eq]; exact shapeCast_abc_nc_apply _ _ bb n d R hR

/-- A column of the three matrices laid side by side is a column of the piece whose span holds it. -/
theorem stacked_q (A0 A1 A2 : FVec Ideal S1024x1024 .f32) (h : Shape.Concatenates [S1024x1024, S1024x1024, S1024x1024] S1024x3072 1)
    (d : Fin 1024) (e : Fin 1024) :
    concatenate S1024x3072 1 [⟨S1024x1024, A0⟩, ⟨S1024x1024, A1⟩, ⟨S1024x1024, A2⟩] h (ix2 d (colq e)) = A0 (ix2 d e) := by
  refine concatenate_apply_piece (t := S1024x3072) 1 [⟨S1024x1024, A0⟩, ⟨S1024x1024, A1⟩, ⟨S1024x1024, A2⟩] h (ix2 d (colq e)) 0 (by simp)
    S1024x1024 A0 rfl rfl 0 (by simp) (ix2 d e) ?_ ?_
  · intro b hb; match b with | ⟨0, _⟩ => rfl | ⟨1, _⟩ => exact absurd rfl hb
  · show 0 + e.val = e.val; omega
theorem stacked_k (A0 A1 A2 : FVec Ideal S1024x1024 .f32) (h : Shape.Concatenates [S1024x1024, S1024x1024, S1024x1024] S1024x3072 1)
    (d : Fin 1024) (e : Fin 1024) :
    concatenate S1024x3072 1 [⟨S1024x1024, A0⟩, ⟨S1024x1024, A1⟩, ⟨S1024x1024, A2⟩] h (ix2 d (colk e)) = A1 (ix2 d e) := by
  refine concatenate_apply_piece (t := S1024x3072) 1 [⟨S1024x1024, A0⟩, ⟨S1024x1024, A1⟩, ⟨S1024x1024, A2⟩] h (ix2 d (colk e)) 1 (by simp)
    S1024x1024 A1 rfl rfl 1024 (by simp) (ix2 d e) ?_ ?_
  · intro b hb; match b with | ⟨0, _⟩ => rfl | ⟨1, _⟩ => exact absurd rfl hb
  · show 1024 + e.val = e.val + 1024; omega
theorem stacked_v (A0 A1 A2 : FVec Ideal S1024x1024 .f32) (h : Shape.Concatenates [S1024x1024, S1024x1024, S1024x1024] S1024x3072 1)
    (d : Fin 1024) (e : Fin 1024) :
    concatenate S1024x3072 1 [⟨S1024x1024, A0⟩, ⟨S1024x1024, A1⟩, ⟨S1024x1024, A2⟩] h (ix2 d (colv e)) = A2 (ix2 d e) := by
  refine concatenate_apply_piece (t := S1024x3072) 1 [⟨S1024x1024, A0⟩, ⟨S1024x1024, A1⟩, ⟨S1024x1024, A2⟩] h (ix2 d (colv e)) 2 (by simp)
    S1024x1024 A2 rfl rfl 2048 (by simp) (ix2 d e) ?_ ?_
  · intro b hb; match b with | ⟨0, _⟩ => rfl | ⟨1, _⟩ => exact absurd rfl hb
  · show 2048 + e.val = e.val + 2048; omega

/-- An entry of the three vectors laid end to end is an entry of the piece whose span holds it. -/
theorem stackedVec_q (b0 b1 b2 : FVec Ideal S1024 .f32) (h : Shape.Concatenates [S1024, S1024, S1024] S3072 0) (e : Fin 1024) :
    concatenate S3072 0 [⟨S1024, b0⟩, ⟨S1024, b1⟩, ⟨S1024, b2⟩] h (ix1 (colq e)) = b0 (ix1 e) := by
  refine concatenate_apply_piece (t := S3072) 0 [⟨S1024, b0⟩, ⟨S1024, b1⟩, ⟨S1024, b2⟩] h (ix1 (colq e)) 0 (by simp)
    S1024 b0 rfl rfl 0 (by simp) (ix1 e) ?_ ?_
  · intro b hb; match b with | ⟨0, _⟩ => exact absurd rfl hb
  · show 0 + e.val = e.val; omega
theorem stackedVec_k (b0 b1 b2 : FVec Ideal S1024 .f32) (h : Shape.Concatenates [S1024, S1024, S1024] S3072 0) (e : Fin 1024) :
    concatenate S3072 0 [⟨S1024, b0⟩, ⟨S1024, b1⟩, ⟨S1024, b2⟩] h (ix1 (colk e)) = b1 (ix1 e) := by
  refine concatenate_apply_piece (t := S3072) 0 [⟨S1024, b0⟩, ⟨S1024, b1⟩, ⟨S1024, b2⟩] h (ix1 (colk e)) 1 (by simp)
    S1024 b1 rfl rfl 1024 (by simp) (ix1 e) ?_ ?_
  · intro b hb; match b with | ⟨0, _⟩ => exact absurd rfl hb
  · show 1024 + e.val = e.val + 1024; omega
theorem stackedVec_v (b0 b1 b2 : FVec Ideal S1024 .f32) (h : Shape.Concatenates [S1024, S1024, S1024] S3072 0) (e : Fin 1024) :
    concatenate S3072 0 [⟨S1024, b0⟩, ⟨S1024, b1⟩, ⟨S1024, b2⟩] h (ix1 (colv e)) = b2 (ix1 e) := by
  refine concatenate_apply_piece (t := S3072) 0 [⟨S1024, b0⟩, ⟨S1024, b1⟩, ⟨S1024, b2⟩] h (ix1 (colv e)) 2 (by simp)
    S1024 b2 rfl rfl 2048 (by simp) (ix1 e) ?_ ?_
  · intro b hb; match b with | ⟨0, _⟩ => exact absurd rfl hb
  · show 2048 + e.val = e.val + 2048; omega

end Cert.KernelIdeal.HostVal

end
-- ==== Proof.LibERealScale.lean ====
/-
  Scaling a finite sum of extended reals by a nonnegative real.

  Multiplication on the extended reals does not distribute over addition in general: with a factor of
  either sign, `⊤ + ⊥ = ⊥` on one side meets `⊤ - ⊤` rearranged on the other.  It does distribute when
  the common factor is a finite nonnegative number, because such a factor keeps the sign of every
  infinite summand: `(a + b) * c = a * c + b * c` for every `a b : EReal` and real `c ≥ 0` (at `c = 0`
  both sides are `0`).  By induction on the index set the same holds for any finite sum
  (`EReal.sum_mul_coe_of_nonneg`), and so a scale applied to one factor of every product of a
  contraction can be taken outside it (`EReal.sum_mul_coe_mul_of_nonneg`):

      ∑ e, (q e * c) * k e = (∑ e, q e * k e) * c.
-/
import Idealize.ShloMosaic.PureOps.Ideal

open scoped BigOperators

namespace EReal

/-- Multiplication by a nonnegative real on the right distributes over the sum of ANY two extended
    reals, infinite ones of either sign included. -/
theorem add_mul_coe_of_nonneg {c : ℝ} (hc : 0 ≤ c) (a b : EReal) :
    (a + b) * (c : EReal) = a * (c : EReal) + b * (c : EReal) :=
  EReal.right_distrib_of_nonneg_of_ne_top (EReal.coe_nonneg.2 hc) (EReal.coe_ne_top c) a b

/-- A finite sum of extended reals times a nonnegative real is the sum of the terms each times it. -/
theorem sum_mul_coe_of_nonneg {ι : Type*} (s : Finset ι) (f : ι → EReal) {c : ℝ} (hc : 0 ≤ c) :
    (∑ i ∈ s, f i) * (c : EReal) = ∑ i ∈ s, f i * (c : EReal) := by
  classical
  refine Finset.induction_on s ?_ ?_
  · rw [Finset.sum_empty, Finset.sum_empty, zero_mul]
  · intro a s ha ih
    rw [Finset.sum_insert ha, Finset.sum_insert ha, add_mul_coe_of_nonneg hc, ih]

/-- A contraction whose first factor is scaled term by term by a nonnegative real is the unscaled
    contraction times that real. -/
theorem sum_mul_coe_mul_of_nonneg {ι : Type*} (s : Finset ι) (q k : ι → EReal) {c : ℝ} (hc : 0 ≤ c) :
    ∑ e ∈ s, (q e * (c : EReal)) * k e = (∑ e ∈ s, q e * k e) * (c : EReal) := by
  rw [sum_mul_coe_of_nonneg s _ hc]
  exact Finset.sum_congr rfl fun e _ => mul_right_comm _ _ _

end EReal
-- ==== Proof.LibKeepdimsColumn.lean ====
/-
  Keepdims column layouts read at an index, generic in the extents and in the element type: a vector [a] seen as the
  column [a, 1] (what a sum over the last axis with keepdims leaves), and such a column stretched along its unit axis to
  [a, b] (what dividing every row by its own scalar needs). Each reads the operand at the row coordinate alone.
-/
import Idealize.ShloMosaic.Lib.Pipeline.Value
import Idealize.ShloMosaic.Lib.ValueIdx

namespace Cert.LibKeepdimsColumn

open Idealize.ShloMosaic Idealize.ShloMosaic.ValueIdx

variable {α : Type}

/-- A vector [a] cast to the column [a, 1] reads, at (i, u), the operand at i, whatever the unit coordinate u:
    both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its unit axis to [a, b] reads, at (p, q), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An index of a column [a, 1] is (its row, 0). -/
theorem eq_col {a : ℕ} (y : (⟨2, ![a, 1]⟩ : Shape).Idx) : ∃ r : Fin a, y = ix2 r (0 : Fin 1) := by
  obtain ⟨r, u, rfl⟩ : ∃ (r : Fin a) (u : Fin 1), y = ix2 r u := ⟨y 0, y 1, eq_ix2 y⟩
  obtain rfl : u = 0 := Subsingleton.elim _ _
  exact ⟨r, rfl⟩

end Cert.LibKeepdimsColumn
-- ==== Proof.LibMatmulTransposedRhs.lean ====
/-
  A matrix-unit product whose right operand is contracted on its LAST axis, read at an index at the ideal values.

  With dimension numbers "contract axis 1 of the left operand with axis 1 of the right one, no batch axes", an [M, K]
  array times an [N, K] array into a zero accumulator is the [M, N] array whose entry (r, c) is the inner product of
  row r of the left operand with row c of the right one: the sum over k of x (r, k) * y (c, k). (It is x times the
  transpose of y, with the transpose never formed.) Generic in the three extents and in the operands' float formats.
-/
import Idealize.ShloMosaic.PureOps.Ideal.Laws
import Idealize.ShloMosaic.Lib.ValueIdx

noncomputable section

open scoped BigOperators

namespace Cert.LibMatmulTransposedRhs

open Idealize.ShloMosaic Idealize.ShloMosaic.ValueIdx

variable (M K N : ℕ)

/-- The left operand's row coordinate is the output's row coordinate. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column coordinate. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- Entry (r, c) of the product into a zero accumulator: row r of the left operand against row c of the right one. -/
theorem matmul_zero_apply {φ₁ φ₂ : FTy} (prec : Option ContractPrecision)
    (x : FVec Ideal ⟨2, ![M, K]⟩ φ₁) (y : FVec Ideal ⟨2, ![N, K]⟩ φ₂) (r : Fin M) (c : Fin N) :
    FloatOps.matmul (DotDims.transposedRhs M K N) prec x y (constant ⟨2, ![M, N]⟩ .f32 0x00000000#32) (ix2 r c)
      = ∑ k : Fin K, x (ix2 r k) * y (ix2 c k) := by
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c)
      ((contrEquiv1 (DotDims.transposedRhs M K N) K rfl rfl).symm k) = ix2 r k := funext fun a => Fin.ext (by
    match a with
    | ⟨0, _⟩ => exact lhs_row M K N _ _
    | ⟨1, _⟩ => exact ((DotDims.transposedRhs M K N).lhsIdx_val_of_single rfl _ _).trans hk)
  have er : (DotDims.transposedRhs M K N).rhsIdx (ix2 r c)
      ((contrEquiv1 (DotDims.transposedRhs M K N) K rfl rfl).symm k) = ix2 c k := funext fun a => Fin.ext (by
    match a with
    | ⟨0, _⟩ => exact rhs_row M K N _ _
    | ⟨1, _⟩ => exact ((DotDims.transposedRhs M K N).rhsIdx_val_of_single rfl _ _).trans hk)
  rw [el, er]

end Cert.LibMatmulTransposedRhs

end
-- ==== Proof.AttnBodyOps.lean ====
/-
  The operations of the attention body read at an index, at the ideal values: its two literals, its two
  products and its two row reductions.

  * the bf16 literal that scales the queries denotes `2⁻⁵`, the score scale; the f32 literal the row
    maximum starts from denotes `⊥`;
  * the score product contracts the LAST axes of a `[512, 1024]` and a `[2048, 1024]` array: its entry
    `(r, j)` is row `r` of the first against row `j` of the second;
  * the output product is a plain `[512, 2048] × [2048, 1024]` one;
  * a row reduction of a `[512, 2048]` array at row `r` runs over that row's 2048 entries: the fold of
    `max` from `⊥` for the maximum, the sum for the sum.
-/
import proofs.«178821_j33268816675404_2_alg».proof.Proof.Gen.KernelIdeal.Skeleton
import proofs.«178821_j33268816675404_2_alg».proof.Proof.AttnSpec
import proofs.«178821_j33268816675404_2_alg».proof.Proof.LibMatmulTransposedRhs
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx Idealize.SL.Sem

/-! ## The two literals -/

/-- The bf16 pattern `0x3D00`: sign 0, exponent field 122, fraction 0, so `2⁷ · 2^(122 - 127 - 7) = 2⁻⁵`. -/
theorem ofBits_scale : Ideal.ofBits .bf16 0x3D00#16 = Cert.Attn.scale := by
  unfold Cert.Attn.scale
  simp [Ideal.ofBits, Ideal.ieee, -EReal.coe_mul]; norm_num

/-- The f32 pattern `0xFF800000`: sign 1, exponent field all ones, fraction 0, so `-∞`. -/
theorem ofBits_negInf : Ideal.ofBits .f32 0xFF800000#32 = ⊥ := by
  simp [Ideal.ofBits, Ideal.ieee]

/-! ## The score product -/

/-- The score product's dimension numbers are those of "contract the last axes of both operands". -/
theorem scoreDot_eq :
    dot_S512x1024_S2048x1024_S512x2048_1_1_0_0_n_n = DotDims.transposedRhs 512 1024 2048 := rfl

/-- Entry `(r, j)` of the score product into a zero accumulator: row `r` of the left operand against row `j` of the
    right one. -/
theorem scoreMatmul_apply (A : FVec Ideal S512x1024 .bf16) (B : FVec Ideal S2048x1024 .bf16) (r : Fin 512) (j : Fin 2048) :
    matmul dot_S512x1024_S2048x1024_S512x2048_1_1_0_0_n_n none A B (constant S512x2048 .f32 0x00000000#32) (ix2 r j)
      = ∑ e : Fin 1024, A (ix2 r e) * B (ix2 j e) := by
  simp only [matmul]
  rw [scoreDot_eq]
  exact Cert.LibMatmulTransposedRhs.matmul_zero_apply 512 1024 2048 none A B r j

/-! ## The output product -/

theorem outDot_lhs_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl

theorem outDot_lhs_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q

theorem outDot_rhs_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q

theorem outDot_rhs_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- Entry `(r, d)` of the output product into a zero accumulator: row `r` of the weights against column `d` of the
    values. -/
theorem outMatmul_apply (A : FVec Ideal S512x2048 .bf16) (B : FVec Ideal S2048x1024 .bf16) (r : Fin 512) (d : Fin 1024) :
    matmul dot_S512x2048_S2048x1024_S512x1024_1_0_0_1_n_n none A B (constant S512x1024 .f32 0x00000000#32) (ix2 r d)
      = ∑ j : Fin 2048, A (ix2 r j) * B (ix2 j d) := by
  simp only [matmul]
  rw [Ideal.matmul_constant_zero_apply,
    ← Equiv.sum_comp (ValueIdx.contrEquiv1 dot_S512x2048_S2048x1024_S512x1024_1_0_0_1_n_n 2048 rfl rfl).symm]
  refine Finset.sum_congr rfl fun k _ => ?_
  have hk := ValueIdx.contrEquiv1_symm_val dot_S512x2048_S2048x1024_S512x1024_1_0_0_1_n_n 2048 rfl rfl k
  have el : dot_S512x2048_S2048x1024_S512x1024_1_0_0_1_n_n.lhsIdx (ix2 r d)
      ((ValueIdx.contrEquiv1 dot_S512x2048_S2048x1024_S512x1024_1_0_0_1_n_n 2048 rfl rfl).symm k) = ix2 r k :=
    funext fun a => Fin.ext (by
      match a with
      | ⟨0, _⟩ => exact outDot_lhs_0 _ _
      | ⟨1, _⟩ => exact (outDot_lhs_1 _ _).trans hk)
  have er : dot_S512x2048_S2048x1024_S512x1024_1_0_0_1_n_n.rhsIdx (ix2 r d)
      ((ValueIdx.contrEquiv1 dot_S512x2048_S2048x1024_S512x1024_1_0_0_1_n_n 2048 rfl rfl).symm k) = ix2 k d :=
    funext fun a => Fin.ext (by
      match a with
      | ⟨0, _⟩ => exact (outDot_rhs_0 _ _).trans hk
      | ⟨1, _⟩ => exact outDot_rhs_1 _ _)
  rw [el, er]

/-! ## The two row reductions -/

/-- Over result row `r`, the source index with coordinate `k` on the reduced axis is `(r, k)`. -/
theorem rowLift_eq (r : Fin 512) (k : Fin 2048) :
    Shape.Reduces.lift (s := S512x2048) (t := S512) (a := 1) Facts₀.reduces_S512x2048_S512 (ix1 r) k = ix2 r k :=
  funext fun c => Fin.ext (by
    match c with
    | ⟨0, _⟩ => rfl
    | ⟨1, _⟩ => rfl)

/-- The row maximum at row `r`: the fold of `max` from `⊥` over that row's entries. -/
theorem rowMax_apply (X : FVec Ideal S512x2048 .f32) (r : Fin 512) :
    multiReduction .maximumf [1] S512 X 0xFF800000#32 Facts₀.reduces_S512x2048_S512 (.inl rfl) rfl (ix1 r)
      = Cert.Attn.rowMax (fun j : Fin 2048 => X (ix2 r j)) := by
  refine (Ideal.multiReduction_maximumf_single X 0xFF800000#32 Facts₀.reduces_S512x2048_S512 (.inl rfl) rfl (ix1 r)).trans ?_
  unfold Cert.Attn.rowMax
  show (Finset.univ : Finset (Fin 2048)).fold max (Ideal.ofBits .f32 0xFF800000#32)
      (X ∘ Shape.Reduces.lift (s := S512x2048) (t := S512) (a := 1) Facts₀.reduces_S512x2048_S512 (ix1 r)) = _
  rw [ofBits_negInf]
  refine congrArg (fun f : Fin 2048 → EReal => (Finset.univ : Finset (Fin 2048)).fold max ⊥ f) (funext fun k => ?_)
  exact congrArg X (rowLift_eq r k)

/-- The row sum at row `r`: the sum of that row's entries. -/
theorem rowSum_apply (X : FVec Ideal S512x2048 .f32) (r : Fin 512) :
    multiReduction .add [1] S512 X 0x00000000#32 Facts₀.reduces_S512x2048_S512 (.inl rfl) rfl (ix1 r)
      = ∑ j : Fin 2048, X (ix2 r j) := by
  refine (Ideal.multiReduction_add_single X 0x00000000#32 Facts₀.reduces_S512x2048_S512 (.inl rfl) rfl (ix1 r)).trans ?_
  show ∑ k : Fin 2048, X (Shape.Reduces.lift (s := S512x2048) (t := S512) (a := 1) Facts₀.reduces_S512x2048_S512 (ix1 r) k) = _
  exact Finset.sum_congr rfl fun k _ => by rw [rowLift_eq]

end Cert.KernelIdeal.BodyValue

end
-- ==== Proof.AttnBody.lean ====
/-
  The attention body read at an index, at the ideal values.

  For one block of 512 query rows against the 2048 key and value rows of its batch, the body

    * multiplies every query entry by `2⁻⁵`,
    * takes the scores: each scaled query row against each key row, contracting the 1024 features,
    * per row: the maximum, the exponentials of the differences from it, their sum, the quotients,
    * multiplies the quotients into the values.

  The scale is applied BEFORE the contraction.  It is a nonnegative real, so it can be taken outside the
  contraction's sum on the extended reals (`EReal.sum_mul_coe_mul_of_nonneg`), and the score of row `r`
  against key `j` is `(∑ e, q r e * k j e) * 2⁻⁵`.  With `s` that row of scores, the quotients are the
  softmax weights `Cert.Attn.weight s`, and the stored entry `(r, d)` is `∑ j, weight s j * v j d`.

  The body is restated below as four stages over named intermediates; that restatement is the payload
  itself (`k1_pay1_eq`, by unfolding), and each stage is read at an index on its own.
-/
import proofs.«178821_j33268816675404_2_alg».proof.Proof.Gen.KernelIdeal.Skeleton
import proofs.«178821_j33268816675404_2_alg».proof.Proof.AttnSpec
import proofs.«178821_j33268816675404_2_alg».proof.Proof.LibERealScale
import proofs.«178821_j33268816675404_2_alg».proof.Proof.LibKeepdimsColumn
import proofs.«178821_j33268816675404_2_alg».proof.Proof.AttnBodyOps
import Idealize.ShloMosaic.Lib.ValueLayout
import Idealize.ShloMosaic.Lib.ValueIdx

noncomputable section

namespace Cert.KernelIdeal.BodyValue

open Cert.KernelIdeal Cert.KernelIdeal.Gen Idealize.ShloMosaic Idealize.ShloMosaic.ValueIdx Idealize.SL.Sem

/-! ## The stages -/

/-- The queries as a `[512, 1024]` array, every entry times the scale literal. -/
def attnQ (v0 : FVec Ideal S1x512x1024 .bf16) : FVec Ideal S512x1024 .bf16 :=
  mulf (shapeCast S512x1024 v0 Facts₀.shapeCasts_S1x512x1024_S512x1024)
    (broadcast S512x1024 (Scalar.ofBits .bf16 0x3D00#16))

/-- The scores: scaled query rows against key rows. -/
def attnScores (v0 : FVec Ideal S1x512x1024 .bf16) (v4 : FVec Ideal S1x2048x1024 .bf16) : FVec Ideal S512x2048 .f32 :=
  matmul dot_S512x1024_S2048x1024_S512x2048_1_1_0_0_n_n none (attnQ v0)
    (shapeCast S2048x1024 v4 Facts₀.shapeCasts_S1x2048x1024_S2048x1024) (constant S512x2048 .f32 0x00000000#32)

/-- Per row, the exponentials of the differences from the row's maximum. -/
def attnExp (X : FVec Ideal S512x2048 .f32) : FVec Ideal S512x2048 .f32 :=
  exp (subf X (broadcastTo S512x2048
    (shapeCast S512x1 (multiReduction .maximumf [1] S512 X 0xFF800000#32 Facts₀.reduces_S512x2048_S512 (.inl rfl) rfl)
      Facts₀.shapeCasts_S512_S512x1) Facts₀.broadcasts_S512x1_S512x2048))

/-- Per row, those exponentials over their sum. -/
def attnWeights (X : FVec Ideal S512x2048 .f32) : FVec Ideal S512x2048 .f32 :=
  divf (attnExp X) (broadcastTo S512x2048
    (shapeCast S512x1 (multiReduction .add [1] S512 (attnExp X) 0x00000000#32 Facts₀.reduces_S512x2048_S512 (.inl rfl) rfl)
      Facts₀.shapeCasts_S512_S512x1) Facts₀.broadcasts_S512x1_S512x2048)

/-- The payload is the weights of the scores, rounded (the identity here), times the values, as a `[1, 512, 1024]` array. -/
theorem k1_pay1_eq (v0 : FVec Ideal S1x512x1024 .bf16) (v4 v6 : FVec Ideal S1x2048x1024 .bf16) :
    k1_pay1 (F := Ideal) v0 v4 v6
      = shapeCast S1x512x1024
          (matmul dot_S512x2048_S2048x1024_S512x1024_1_0_0_1_n_n none
            (truncf .bf16 (attnWeights (attnScores v0 v4)) Facts₀.bitsLt_bf16_f32)
            (shapeCast S2048x1024 v6 Facts₀.shapeCasts_S1x2048x1024_S2048x1024)
            (constant S512x1024 .f32 0x00000000#32))
          Facts₀.shapeCasts_S512x1024_S1x512x1024 := rfl

/-! ## Each stage at an index -/

/-- A scaled query entry. -/
theorem attnQ_apply (v0 : FVec Ideal S1x512x1024 .bf16) (r : Fin 512) (e : Fin 1024) :
    attnQ v0 (ix2 r e) = v0 (ix3 (0 : Fin 1) r e) * Cert.Attn.scale := by
  unfold attnQ
  rw [mulf_apply, shapeCast_1ab_ab_apply, broadcast_apply]
  exact congrArg (v0 (ix3 (0 : Fin 1) r e) * ·) ofBits_scale

/-- A score: the unscaled inner product of query row `r` and key row `j`, times the scale. -/
theorem attnScores_apply (v0 : FVec Ideal S1x512x1024 .bf16) (v4 : FVec Ideal S1x2048x1024 .bf16) (r : Fin 512) (j : Fin 2048) :
    attnScores v0 v4 (ix2 r j)
      = (∑ e : Fin 1024, v0 (ix3 (0 : Fin 1) r e) * v4 (ix3 (0 : Fin 1) j e)) * Cert.Attn.scale := by
  unfold attnScores
  rw [scoreMatmul_apply]
  refine (Finset.sum_congr rfl fun e _ => ?_).trans
    (EReal.sum_mul_coe_mul_of_nonneg Finset.univ (fun e : Fin 1024 => v0 (ix3 (0 : Fin 1) r e))
      (fun e : Fin 1024 => v4 (ix3 (0 : Fin 1) j e)) (c := 1 / 32) (by norm_num))
  rw [attnQ_apply, shapeCast_1ab_ab_apply]
  rfl

/-- An exponential: of the entry less its row's maximum. -/
theorem attnExp_apply (X : FVec Ideal S512x2048 .f32) (r : Fin 512) (j : Fin 2048) :
    attnExp X (ix2 r j) = Cert.Attn.expShift (fun j' : Fin 2048 => X (ix2 r j')) j := by
  unfold attnExp Cert.Attn.expShift
  show Ideal.exp (subf X _ (ix2 r j)) = _
  rw [subf_apply, Cert.LibKeepdimsColumn.broadcastTo_a1_ab_apply, Cert.LibKeepdimsColumn.shapeCast_a_a1_apply,
    rowMax_apply]

/-- A quotient: the softmax weight of entry `j` of row `r`. -/
theorem attnWeights_apply (X : FVec Ideal S512x2048 .f32) (r : Fin 512) (j : Fin 2048) :
    attnWeights X (ix2 r j) = Cert.Attn.weight (fun j' : Fin 2048 => X (ix2 r j')) j := by
  unfold attnWeights Cert.Attn.weight
  rw [divf_apply, Cert.LibKeepdimsColumn.broadcastTo_a1_ab_apply, Cert.LibKeepdimsColumn.shapeCast_a_a1_apply,
    rowSum_apply, attnExp_apply]
  exact congrArg (Ideal.div _) (Finset.sum_congr rfl fun j' _ => attnExp_apply X r j')

/-! ## The stored entry -/

/-- Entry `(0, r, d)` of what the body stores: the softmax weights of row `r`'s scaled scores against column `d` of
    the values. -/
theorem k1_pay1_apply (v0 : FVec Ideal S1x512x1024 .bf16) (v4 v6 : FVec Ideal S1x2048x1024 .bf16)
    (r : Fin 512) (d : Fin 1024) :
    k1_pay1 (F := Ideal) v0 v4 v6 (ix3 (0 : Fin 1) r d)
      = ∑ j : Fin 2048,
          Cert.Attn.weight (fun j' : Fin 2048 =>
              (∑ e : Fin 1024, v0 (ix3 (0 : Fin 1) r e) * v4 (ix3 (0 : Fin 1) j' e)) * Cert.Attn.scale) j
            * v6 (ix3 (0 : Fin 1) j d) := by
  rw [k1_pay1_eq, shapeCast_ab_1ab_apply, outMatmul_apply]
  have hs : (fun j' : Fin 2048 => attnScores v0 v4 (ix2 r j'))
      = fun j' : Fin 2048 => (∑ e : Fin 1024, v0 (ix3 (0 : Fin 1) r e) * v4 (ix3 (0 : Fin 1) j' e)) * Cert.Attn.scale :=
    funext fun j' => attnScores_apply v0 v4 r j'
  refine Finset.sum_congr rfl fun j _ => ?_
  rw [truncf_apply, attnWeights_apply, shapeCast_1ab_ab_apply, hs]

end Cert.KernelIdeal.BodyValue

end
-- ==== Proof.AttnArrayIndex.lean ====
/-
  The attention kernel's grid is 4 batches by 4 query tiles of 512 rows.  At the point (b, qi) the query window
  and the output window sit at block (b, qi, 0) of their [4, 2048, 1024] arrays, in blocks of [1, 512, 1024]; the
  key and value windows sit at block (b, 0, 0), in blocks of [1, 2048, 1024].  This module decides those relations
  once over the sixteen points, and shows that the sixteen output blocks fill the output array: the index
  (b, n, d) is in the block of the point (b, n / 512).
-/
import proofs.«178821_j33268816675404_2_alg».proof.Proof.Gen.KernelIdeal.Points
import Idealize.ShloMosaic.Lib.Pipeline.Value

noncomputable section

namespace Cert.KernelIdeal.Val1

open Cert.KernelIdeal Cert.KernelIdeal.Gen
open Idealize.ShloMosaic Idealize.ShloMosaic.TcCoe Idealize.SL.Sem

/-- The zero offsets of a whole-block rectangle, as a constant function. -/
theorem zero3 : (![0, 0, 0] : Fin 3 → Nat) = fun _ => 0 := funext fun a => by fin_cases a <;> rfl

/-- The block indices at every point: the query block is the output block; the key and value blocks share the
    output block's batch and start at row 0; every block starts at column 0; batch and tile indices stay below 4. -/
theorem index_facts : ∀ t : Fin cfg1.N,
    win1_0.index t (0 : Fin 3) = win1_3.index t (0 : Fin 3)
    ∧ win1_0.index t (1 : Fin 3) = win1_3.index t (1 : Fin 3)
    ∧ win1_0.index t (2 : Fin 3) = 0
    ∧ win1_1.index t (0 : Fin 3) = win1_3.index t (0 : Fin 3)
    ∧ win1_1.index t (1 : Fin 3) = 0
    ∧ win1_1.index t (2 : Fin 3) = 0
    ∧ win1_2.index t (0 : Fin 3) = win1_3.index t (0 : Fin 3)
    ∧ win1_2.index t (1 : Fin 3) = 0
    ∧ win1_2.index t (2 : Fin 3) = 0
    ∧ win1_3.index t (0 : Fin 3) ≤ 3
    ∧ win1_3.index t (1 : Fin 3) ≤ 3
    ∧ win1_3.index t (2 : Fin 3) = 0 :=
  (by decide +kernel : ∀ t : Fin grid1.N, _)

/-- Every (batch, tile) pair is some point's output block. -/
theorem index_onto : ∀ (q0 q1 : Fin 4), ∃ t : Fin cfg1.N, win1_3.index t = ![q0.val, q1.val, 0] :=
  (by decide +kernel : ∀ (q0 q1 : Fin 4), ∃ t : Fin grid1.N, win1_3.index t = ![q0.val, q1.val, 0])

/-- An index of the output array is in a point's block iff each coordinate is in the block's range on its axis. -/
theorem mem_block (t : Fin cfg1.N) (i : S4x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v9).slice (win1_3.rect t)).set ↔ _
  rw [View.set_slice_whole, Rect.mem_set_unit]
  exact Iff.rfl

/-- Every index (b, n, d) of the output array is in the block of the point of batch b and tile n / 512, which is
    written back. -/
theorem covered (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := index_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_block]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

end Cert.KernelIdeal.Val1

end
-- ==== Proof.AttnArray.lean ====
/-
  From the attention kernel's blocks to its whole output array, at the ideal values.  At the grid point of batch b
  and query tile qi the body stores, in a [1, 512, 1024] block, the softmax attention of the tile's 512 query rows
  against the batch's 2048 keys and values; the query block is rows 512 qi … 512 qi + 511 of batch b of the query
  array, the key and value blocks are batch b of theirs, and the output block goes back to the same rows of batch b of
  the output array.  So every write-back is a block of ONE function of the three arrays, the attention of the
  spec at (b, n, d), and the sixteen blocks fill the array: the output array ends as that function.
-/
import proofs.«178821_j33268816675404_2_alg».proof.Proof.KernelIdealRun
import proofs.«178821_j33268816675404_2_alg».proof.Proof.AttnSpec
import proofs.«178821_j33268816675404_2_alg».proof.Proof.AttnBody
import proofs.«178821_j33268816675404_2_alg».proof.Proof.AttnArrayIndex
import Idealize.ShloMosaic.Lib.Pipeline.Value
import Idealize.ShloMosaic.Lib.ValueIdx

noncomputable section

namespace Cert.KernelIdeal.Val1

open Cert.KernelIdeal Cert.KernelIdeal.Gen Cert.KernelIdeal.Fr Cert.KernelIdeal.BodyValue
open Idealize.ShloMosaic Idealize.ShloMosaic.TcCoe Idealize.SL.Sem Idealize.ShloMosaic.ValueIdx
open Idealize.ShloMosaic.Pipeline (Dat)

/-- The attention of three [4, 2048, 1024] arrays (queries, keys, values), as one array: entry (b, n, d) is the
    softmax of row n's scaled scores against batch b's keys, applied to column d of batch b's values. -/
def G1 (q k v : FVec Ideal S4x2048x1024 .bf16) : FVec Ideal S4x2048x1024 .f32 := fun i =>
  Cert.Attn.attnOut (fun bb n e => q (ix3 bb n e)) (fun bb n e => k (ix3 bb n e)) (fun bb n e => v (ix3 bb n e)) (i 0) (i 1) (i 2)

/-- One query tile against its batch's keys and values: when the tile's rows are rows n0 … n0 + 511 of batch b of
    the queries and the key and value blocks are batch b of theirs, the body's entry (0, r, d) is the attention of the
    whole arrays at (b, n0 + r, d). -/
theorem tile_eq (q k v : FVec Ideal S4x2048x1024 .bf16)
    (x0 : FVec Ideal S1x512x1024 .bf16) (x1 x2 : FVec Ideal S1x2048x1024 .bf16)
    (b : Fin 4) (n0 : Nat) (hn0 : n0 + 512 ≤ 2048)
    (h0 : ∀ (r : Fin 512) (e : Fin 1024), x0 (ix3 (0 : Fin 1) r e) = q (ix3 b (⟨n0 + r.val, by omega⟩ : Fin 2048) e))
    (h1 : ∀ (j : Fin 2048) (e : Fin 1024), x1 (ix3 (0 : Fin 1) j e) = k (ix3 b j e))
    (h2 : ∀ (j : Fin 2048) (e : Fin 1024), x2 (ix3 (0 : Fin 1) j e) = v (ix3 b j e))
    (r : Fin 512) (d : Fin 1024) :
    k1_pay1 (F := Ideal) x0 x1 x2 (ix3 (0 : Fin 1) r d) = G1 q k v (ix3 b (⟨n0 + r.val, by omega⟩ : Fin 2048) d) := by
  refine (k1_pay1_apply x0 x1 x2 r d).trans ?_
  simp only [h0, h1, h2]
  rfl

variable (V : (c : Dev nD) → (b : Ref sig .tc) → Buf (Elt Ideal) ((c : Thread nD τ).loc b))

/-- The query window's block at a point, at (row r, column e), is the query array at the output block's batch, at
    row 512 · tile + r, at column e. -/
theorem read_query (c : Dev nD) (t : Fin cfg1.N) (r : Fin 512) (e : Fin 1024) (b : Fin 4) (n : Fin 2048)
    (hb : win1_3.index t (0 : Fin 3) = b.val) (hn : win1_3.index t (1 : Fin 3) * 512 + r.val = n.val) :
    iblk1 (F := Ideal) V c 0 t (ix3 (0 : Fin 1) r e) = V c main_v6 (ix3 b n e) := by
  obtain ⟨e0, e1, e2, -⟩ := index_facts t
  show V c main_v6 (((cfg1.win 0).blk t).view.emb (ix3 (0 : Fin 1) r e)) = V c main_v6 (ix3 b n e)
  refine congrArg _ ?_
  funext a; apply Fin.ext
  match a with
  | ⟨0, _⟩ => show win1_0.index t (0 : Fin 3) * 1 + 1 * 0 = b.val; omega
  | ⟨1, _⟩ => show win1_0.index t (1 : Fin 3) * 512 + 1 * r.val = n.val; omega
  | ⟨2, _⟩ => show win1_0.index t (2 : Fin 3) * 1024 + 1 * e.val = e.val; omega

/-- The key window's block at a point is the whole key matrix of the output block's batch. -/
theorem read_key (c : Dev nD) (t : Fin cfg1.N) (j : Fin 2048) (e : Fin 1024) (b : Fin 4)
    (hb : win1_3.index t (0 : Fin 3) = b.val) :
    iblk1 (F := Ideal) V c 1 t (ix3 (0 : Fin 1) j e) = V c main_v7 (ix3 b j e) := by
  obtain ⟨-, -, -, e0, e1, e2, -⟩ := index_facts t
  show V c main_v7 (((cfg1.win 1).blk t).view.emb (ix3 (0 : Fin 1) j e)) = V c main_v7 (ix3 b j e)
  refine congrArg _ ?_
  funext a; apply Fin.ext
  match a with
  | ⟨0, _⟩ => show win1_1.index t (0 : Fin 3) * 1 + 1 * 0 = b.val; omega
  | ⟨1, _⟩ => show win1_1.index t (1 : Fin 3) * 2048 + 1 * j.val = j.val; omega
  | ⟨2, _⟩ => show win1_1.index t (2 : Fin 3) * 1024 + 1 * e.val = e.val; omega

/-- The value window's block at a point is the whole value matrix of the output block's batch. -/
theorem read_value (c : Dev nD) (t : Fin cfg1.N) (j : Fin 2048) (e : Fin 1024) (b : Fin 4)
    (hb : win1_3.index t (0 : Fin 3) = b.val) :
    iblk1 (F := Ideal) V c 2 t (ix3 (0 : Fin 1) j e) = V c main_v8 (ix3 b j e) := by
  obtain ⟨-, -, -, -, -, -, e0, e1, e2, -⟩ := index_facts t
  show V c main_v8 (((cfg1.win 2).blk t).view.emb (ix3 (0 : Fin 1) j e)) = V c main_v8 (ix3 b j e)
  refine congrArg _ ?_
  funext a; apply Fin.ext
  match a with
  | ⟨0, _⟩ => show win1_2.index t (0 : Fin 3) * 1 + 1 * 0 = b.val; omega
  | ⟨1, _⟩ => show win1_2.index t (1 : Fin 3) * 2048 + 1 * j.val = j.val; omega
  | ⟨2, _⟩ => show win1_2.index t (2 : Fin 3) * 1024 + 1 * e.val = e.val; omega

/-- Where entry (0, r, d) of the output window's block at a point sits in the output array: the block's batch,
    row 512 · tile + r, column d. -/
theorem emb_out (t : Fin cfg1.N) (r : Fin 512) (d : Fin 1024) (b : Fin 4) (n : Fin 2048)
    (hb : win1_3.index t (0 : Fin 3) = b.val) (hn : win1_3.index t (1 : Fin 3) * 512 + r.val = n.val) :
    ((cfg1.win 3).blk t).view.emb (ix3 (0 : Fin 1) r d) = ix3 b n d := by
  obtain ⟨-, -, -, -, -, -, -, -, -, -, -, e2⟩ := index_facts t
  funext a; apply Fin.ext
  match a with
  | ⟨0, _⟩ => show win1_3.index t (0 : Fin 3) * 1 + 1 * 0 = b.val; omega
  | ⟨1, _⟩ => show win1_3.index t (1 : Fin 3) * 512 + 1 * r.val = n.val; omega
  | ⟨2, _⟩ => show win1_3.index t (2 : Fin 3) * 1024 + 1 * d.val = d.val; omega

set_option maxHeartbeats 400000 in
/-- What a point writes back is its block of the attention of the three arrays as the kernel finds them. -/
theorem flushed_eq (c : Dev nD) (t : Fin cfg1.N) :
    (dat1 (F := Ideal) V c).flushed 3 t
      = ((cfg1.win 3).blk t).view.read (Elt Ideal) (G1 (V c main_v6) (V c main_v7) (V c main_v8)) := by
  show (cfg1.win 3).cut (grid1.coords t) ((dat1 V c).after 3 t) = _
  rw [after1_3]
  unfold out1_3
  rw [View.canon_unit_zero zero3]
  simp only [View.ld_unit_zero (S := S1x512x1024) zero3, View.ld_unit_zero (S := S1x2048x1024) zero3]
  funext y
  obtain ⟨p, r, d, rfl⟩ : ∃ (p : Fin 1) (r : Fin 512) (d : Fin 1024), y = ix3 p r d := ⟨y 0, y 1, y 2, eq_ix3 y⟩
  obtain rfl : p = 0 := Subsingleton.elim _ _
  have hf := index_facts t
  have hb : win1_3.index t (0 : Fin 3) ≤ 3 := hf.2.2.2.2.2.2.2.2.2.1
  have hq : win1_3.index t (1 : Fin 3) ≤ 3 := hf.2.2.2.2.2.2.2.2.2.2.1
  have hn0 : win1_3.index t (1 : Fin 3) * 512 + 512 ≤ 2048 := by omega
  show k1_pay1 (F := Ideal) (iblk1 V c 0 t) (iblk1 V c 1 t) (iblk1 V c 2 t) (ix3 (0 : Fin 1) r d)
    = G1 (V c main_v6) (V c main_v7) (V c main_v8) (((cfg1.win 3).blk t).view.emb (ix3 (0 : Fin 1) r d))
  rw [emb_out t r d ⟨win1_3.index t (0 : Fin 3), by omega⟩ ⟨win1_3.index t (1 : Fin 3) * 512 + r.val, by omega⟩ rfl rfl]
  exact tile_eq (V c main_v6) (V c main_v7) (V c main_v8) (iblk1 V c 0 t) (iblk1 V c 1 t) (iblk1 V c 2 t)
    ⟨win1_3.index t (0 : Fin 3), by omega⟩ (win1_3.index t (1 : Fin 3) * 512) hn0
    (fun r e => read_query V c t r e _ _ rfl rfl)
    (fun j e => read_key V c t j e _ rfl)
    (fun j e => read_value V c t j e _ rfl) r d

/-- The output array after the kernel is the attention of the query, key and value arrays as the kernel finds them. -/
theorem final1 (V : (c : Dev nD) → (b : Ref sig .tc) → Buf (Elt Ideal) ((c : Thread nD τ).loc b)) (c : Dev nD) :
    (dat1 (F := Ideal) V c).arrAt 3 cfg1.N = G1 (V c main_v6) (V c main_v7) (V c main_v8) :=
  (dat1 (F := Ideal) V c).arrAt_eq_of_cover 3 (G1 (V c main_v6) (V c main_v7) (V c main_v8))
    (fun t _ => flushed_eq V c t) covered

end Cert.KernelIdeal.Val1

end
-- ==== Proof.KernelValue.lean ====
/-
  The kernel program's result array, at the ideal reading, is the attention function of the seven argument arrays.
  The chain: the result buffer holds what the attention kernel's write-backs leave, which is attention over the three arrays
  q, k, v it was entered with; each of those is a reshape of what the projection kernel's write-backs leave, which is the
  affine projection of X by the stacked weights and biases; and X, the stacked weights and the stacked biases are the
  host's reshape and concatenations of the arguments.  Read at an index, every link is an equation between sums.
-/
import proofs.«178821_j33268816675404_2_alg».proof.Proof.HostReads
import proofs.«178821_j33268816675404_2_alg».proof.Proof.AttnArray
import proofs.«178821_j33268816675404_2_alg».proof.Proof.AttnSpec

noncomputable section

namespace Cert.KernelIdeal.Val

open Cert.KernelIdeal Cert.KernelIdeal.Gen Cert.KernelIdeal.Fr Cert.KernelIdeal.Val0 Cert.KernelIdeal.HostVal Cert.LibMergeLeadingAxes
open Idealize.ShloMosaic Idealize.ShloMosaic.ValueIdx Idealize.ShloMosaic.TcCoe Idealize.SL.Sem

variable (m : (ℓ : Loc nD τ sig) → Buf (Elt Ideal) ℓ)

/-! ## q, k and v as the attention kernel finds them are the three projections of the arguments -/

theorem q_apply (c : Dev nD) (bb : Fin 4) (n : Fin 2048) (e : Fin 1024) :
    Fr.V3 m c main_v6 (ix3 bb n e)
      = Cert.Attn.proj (m ((c.tc : Thread nD τ).loc main_arg0)) (m ((c.tc : Thread nD τ).loc main_arg1)) (m ((c.tc : Thread nD τ).loc main_arg2)) bb n e := by
  have hRlt : bb.val * 2048 + n.val < 8192 := by have := bb.isLt; have := n.isLt; omega
  rw [q_eq]
  refine (shapeCast_nc_abc_apply _ _ bb n e ⟨_, hRlt⟩ rfl).trans ?_
  rw [show W2 m c (Proc.devRef .tc main_v5_0) = (dat0 (Fr.V1 m) c).arrAt 3 cfg0.N from W2_arr m c 3, final3]
  show projAt (Fr.V1 m c main_v0) (Fr.V1 m c main_v2) (Fr.V1 m c main_v4) ⟨_, hRlt⟩ (colq e) = _
  unfold projAt Cert.Attn.proj
  simp only [X_apply m c bb n _ ⟨_, hRlt⟩ rfl]
  rw [Wc_eq, Bc_eq]
  simp only [truncf_apply, stacked_q, shapeCast_a_1a_apply]
  exact congrArg (_ + ·) (stackedVec_q _ _ _ _ e)

theorem k_apply (c : Dev nD) (bb : Fin 4) (n : Fin 2048) (e : Fin 1024) :
    Fr.V3 m c main_v7 (ix3 bb n e)
      = Cert.Attn.proj (m ((c.tc : Thread nD τ).loc main_arg0)) (m ((c.tc : Thread nD τ).loc main_arg3)) (m ((c.tc : Thread nD τ).loc main_arg4)) bb n e := by
  have hRlt : bb.val * 2048 + n.val < 8192 := by have := bb.isLt; have := n.isLt; omega
  rw [k_eq]
  refine (shapeCast_nc_abc_apply _ _ bb n e ⟨_, hRlt⟩ rfl).trans ?_
  rw [show W2 m c (Proc.devRef .tc main_v5_1) = (dat0 (Fr.V1 m) c).arrAt 4 cfg0.N from W2_arr m c 4, final4]
  show projAt (Fr.V1 m c main_v0) (Fr.V1 m c main_v2) (Fr.V1 m c main_v4) ⟨_, hRlt⟩ (colk e) = _
  unfold projAt Cert.Attn.proj
  simp only [X_apply m c bb n _ ⟨_, hRlt⟩ rfl]
  rw [Wc_eq, Bc_eq]
  simp only [truncf_apply, stacked_k, shapeCast_a_1a_apply]
  exact congrArg (_ + ·) (stackedVec_k _ _ _ _ e)

theorem v_apply (c : Dev nD) (bb : Fin 4) (n : Fin 2048) (e : Fin 1024) :
    Fr.V3 m c main_v8 (ix3 bb n e)
      = Cert.Attn.proj (m ((c.tc : Thread nD τ).loc main_arg0)) (m ((c.tc : Thread nD τ).loc main_arg5)) (m ((c.tc : Thread nD τ).loc main_arg6)) bb n e := by
  have hRlt : bb.val * 2048 + n.val < 8192 := by have := bb.isLt; have := n.isLt; omega
  rw [v_eq]
  refine (shapeCast_nc_abc_apply _ _ bb n e ⟨_, hRlt⟩ rfl).trans ?_
  rw [show W2 m c (Proc.devRef .tc main_v5_2) = (dat0 (Fr.V1 m) c).arrAt 5 cfg0.N from W2_arr m c 5, final5]
  show projAt (Fr.V1 m c main_v0) (Fr.V1 m c main_v2) (Fr.V1 m c main_v4) ⟨_, hRlt⟩ (colv e) = _
  unfold projAt Cert.Attn.proj
  simp only [X_apply m c bb n _ ⟨_, hRlt⟩ rfl]
  rw [Wc_eq, Bc_eq]
  simp only [truncf_apply, stacked_v, shapeCast_a_1a_apply]
  exact congrArg (_ + ·) (stackedVec_v _ _ _ _ e)

/-! ## The result -/

/-- The result buffer at the end of the run is the attention function of the arguments. -/
theorem kernel_result (c : Dev nD) :
    W4 m c (Proc.devRef .tc main_v9)
      = Cert.Attn.attn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  rw [W4_main_v9, Cert.KernelIdeal.Val1.final1]
  funext i
  obtain ⟨bb, n, d, rfl⟩ : ∃ (bb : Fin 4) (n : Fin 2048) (d : Fin 1024), i = ix3 bb n d := ⟨i 0, i 1, i 2, eq_ix3 i⟩
  have hq : (fun bb n e => Fr.V3 m c main_v6 (ix3 bb n e)) = Cert.Attn.proj (m ((c.tc : Thread nD τ).loc main_arg0)) (m ((c.tc : Thread nD τ).loc main_arg1)) (m ((c.tc : Thread nD τ).loc main_arg2)) :=
    funext fun bb => funext fun n => funext fun e => q_apply m c bb n e
  have hk : (fun bb n e => Fr.V3 m c main_v7 (ix3 bb n e)) = Cert.Attn.proj (m ((c.tc : Thread nD τ).loc main_arg0)) (m ((c.tc : Thread nD τ).loc main_arg3)) (m ((c.tc : Thread nD τ).loc main_arg4)) :=
    funext fun bb => funext fun n => funext fun e => k_apply m c bb n e
  have hv : (fun bb n e => Fr.V3 m c main_v8 (ix3 bb n e)) = Cert.Attn.proj (m ((c.tc : Thread nD τ).loc main_arg0)) (m ((c.tc : Thread nD τ).loc main_arg5)) (m ((c.tc : Thread nD τ).loc main_arg6)) :=
    funext fun bb => funext fun n => funext fun e => v_apply m c bb n e
  exact congrFun (congrFun (congrFun (congr (congr (congrArg Cert.Attn.attnOut hq) hk) hv) bb) n) d

end Cert.KernelIdeal.Val

end
-- ==== Proof.RefConsts.lean ====
/-
  Three float constants the reference spells (1024, 1 and -∞), as the extended reals their patterns denote, and
  the score scale it computes from the first two: 1 / √1024 = 1 / 32, because 1024 = 32².
-/
import Idealize.ShloMosaic.PureOps.Ideal
import Idealize.ShloMosaic.PureOps.Ideal.Laws
import proofs.«178821_j33268816675404_2_alg».proof.Proof.AttnSpec

noncomputable section

namespace Cert.RefSide

open Idealize.ShloMosaic

/-- The pattern of `1024.0` denotes the real `1024`. -/
theorem ofBits_1024 : Ideal.ofBits .f32 0x44800000#32 = ((1024 : ℝ) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-- The pattern of `-∞` denotes `⊥`. -/
theorem ofBits_neg_inf : Ideal.ofBits .f32 0xFF800000#32 = ⊥ := by
  simp [Ideal.ofBits, Ideal.ieee]

/-- The square root of `1024` is `32`. -/
theorem sqrt_1024 : Real.sqrt 1024 = 32 := by
  rw [show (1024 : ℝ) = 32 ^ 2 by norm_num]
  exact Real.sqrt_sq (by norm_num)

/-- The quotient of `1.0` by the square root of `1024.0` is the score scale `1 / 32`. -/
theorem scale_eq :
    Ideal.div (Ideal.ofBits .f32 0x3F800000#32) (Ideal.sqrt (Ideal.ofBits .f32 0x44800000#32)) = Cert.Attn.scale := by
  rw [ofBits_one, ofBits_1024, Ideal.sqrt_coe, if_neg (by norm_num), sqrt_1024,
    Ideal.div_coe (by norm_num : (32 : ℝ) ≠ 0), one_mul]
  rfl

end Cert.RefSide

end
-- ==== Proof.RefProj.lean ====
/-
  The reference's three affine projections, read at (batch, row, column): each is the row of `x` against the
  column of the weight matrix, plus the bias entry of that column — the specification's `proj`.  The
  contraction runs over the last axis of `x` and the first of the weights; the bias is broadcast along the
  batch and row axes, so only its column coordinate is read.
-/
import proofs.«178821_j33268816675404_2_alg».proof.Proof.Gen.ReferenceIdeal.Read
import proofs.«178821_j33268816675404_2_alg».proof.Proof.AttnSpec

noncomputable section

namespace Cert.RefSide

open Idealize.ShloMosaic Idealize.ShloMosaic.ValueIdx Cert.ReferenceIdeal Cert.ReferenceIdeal.Read

/-- The query projection at (batch, row, column). -/
theorem proj_q (x : FVec Ideal ⟨3, ![4, 2048, 1024]⟩ .f32) (W : FVec Ideal ⟨2, ![1024, 1024]⟩ .f32)
    (b : FVec Ideal ⟨1, ![1024]⟩ .f32) (bb : Fin 4) (n : Fin 2048) (e : Fin 1024) :
    val_main_v3 (F := Ideal) x W b (ix3 bb n e) = Cert.Attn.proj x W b bb n e := by
  rw [val_main_v3_apply, val_main_v0_apply, val_main_v2_apply, val_main_v1_apply]
  have el : ∀ k : Fin 1024, lidx_main_v0 (ix3 bb n e) k = ix3 bb n k := fun k => funext fun a => by
    match a with | ⟨0, _⟩ => rfl | ⟨1, _⟩ => rfl | ⟨2, _⟩ => rfl
  have er : ∀ k : Fin 1024, ridx_main_v0 (ix3 bb n e) k = ix2 k e := fun k => funext fun a => by
    match a with | ⟨0, _⟩ => rfl | ⟨1, _⟩ => rfl
  have eb : idx_main_v1 (idx_main_v2 (ix3 bb n e)) = ix1 e := funext fun a => by
    match a with | ⟨0, _⟩ => rfl
  simp only [el, er, eb]
  rfl

/-- The key projection at (batch, row, column). -/
theorem proj_k (x : FVec Ideal ⟨3, ![4, 2048, 1024]⟩ .f32) (W : FVec Ideal ⟨2, ![1024, 1024]⟩ .f32)
    (b : FVec Ideal ⟨1, ![1024]⟩ .f32) (bb : Fin 4) (n : Fin 2048) (e : Fin 1024) :
    val_main_v7 (F := Ideal) x W b (ix3 bb n e) = Cert.Attn.proj x W b bb n e := by
  rw [val_main_v7_apply, val_main_v4_apply, val_main_v6_apply, val_main_v5_apply]
  have el : ∀ k : Fin 1024, lidx_main_v4 (ix3 bb n e) k = ix3 bb n k := fun k => funext fun a => by
    match a with | ⟨0, _⟩ => rfl | ⟨1, _⟩ => rfl | ⟨2, _⟩ => rfl
  have er : ∀ k : Fin 1024, ridx_main_v4 (ix3 bb n e) k = ix2 k e := fun k => funext fun a => by
    match a with | ⟨0, _⟩ => rfl | ⟨1, _⟩ => rfl
  have eb : idx_main_v5 (idx_main_v6 (ix3 bb n e)) = ix1 e := funext fun a => by
    match a with | ⟨0, _⟩ => rfl
  simp only [el, er, eb]
  rfl

/-- The value projection at (batch, row, column). -/
theorem proj_v (x : FVec Ideal ⟨3, ![4, 2048, 1024]⟩ .f32) (W : FVec Ideal ⟨2, ![1024, 1024]⟩ .f32)
    (b : FVec Ideal ⟨1, ![1024]⟩ .f32) (bb : Fin 4) (n : Fin 2048) (e : Fin 1024) :
    val_main_v11 (F := Ideal) x W b (ix3 bb n e) = Cert.Attn.proj x W b bb n e := by
  rw [val_main_v11_apply, val_main_v8_apply, val_main_v10_apply, val_main_v9_apply]
  have el : ∀ k : Fin 1024, lidx_main_v8 (ix3 bb n e) k = ix3 bb n k := fun k => funext fun a => by
    match a with | ⟨0, _⟩ => rfl | ⟨1, _⟩ => rfl | ⟨2, _⟩ => rfl
  have er : ∀ k : Fin 1024, ridx_main_v8 (ix3 bb n e) k = ix2 k e := fun k => funext fun a => by
    match a with | ⟨0, _⟩ => rfl | ⟨1, _⟩ => rfl
  have eb : idx_main_v9 (idx_main_v10 (ix3 bb n e)) = ix1 e := funext fun a => by
    match a with | ⟨0, _⟩ => rfl
  simp only [el, er, eb]
  rfl

end Cert.RefSide

end
-- ==== Proof.RefScore.lean ====
/-
  The reference's scaled scores, read at (batch, query row, key row): the query row's projection against the
  key row's projection, summed over the 1024 columns, times the scale the reference computes as 1 / √1024.
  The contraction keeps the batch axis and pairs the last axes of the two projections.
-/
import proofs.«178821_j33268816675404_2_alg».proof.Proof.RefConsts
import proofs.«178821_j33268816675404_2_alg».proof.Proof.RefProj

noncomputable section

namespace Cert.RefSide

open Idealize.ShloMosaic Idealize.ShloMosaic.ValueIdx Cert.ReferenceIdeal Cert.ReferenceIdeal.Read

/-- The scaled score of query row `n` against key row `j` in batch `bb`. -/
theorem score_eq (x : FVec Ideal ⟨3, ![4, 2048, 1024]⟩ .f32)
    (Wq : FVec Ideal ⟨2, ![1024, 1024]⟩ .f32) (bq : FVec Ideal ⟨1, ![1024]⟩ .f32)
    (Wk : FVec Ideal ⟨2, ![1024, 1024]⟩ .f32) (bk : FVec Ideal ⟨1, ![1024]⟩ .f32)
    (bb : Fin 4) (n j : Fin 2048) :
    val_main_v16 (F := Ideal) x Wq bq Wk bk (ix3 bb n j)
      = Cert.Attn.score (Cert.Attn.proj x Wq bq) (Cert.Attn.proj x Wk bk) bb n j := by
  rw [val_main_v16_apply, val_main_v14_apply, val_main_v15_apply, val_main_v13_apply, val_main_cst_0_apply,
    val_main_v12_apply, val_main_cst_apply]
  have el : ∀ k : Fin 1024, lidx_main_v14 (ix3 bb n j) k = ix3 bb n k := fun k => funext fun a => by
    match a with | ⟨0, _⟩ => rfl | ⟨1, _⟩ => rfl | ⟨2, _⟩ => rfl
  have er : ∀ k : Fin 1024, ridx_main_v14 (ix3 bb n j) k = ix3 bb j k := fun k => funext fun a => by
    match a with | ⟨0, _⟩ => rfl | ⟨1, _⟩ => rfl | ⟨2, _⟩ => rfl
  simp only [el, er, proj_q, proj_k, Ideal.mulf_def, Ideal.hostDivf_def, Ideal.hostUnary_sqrt_def, Ideal.ofBits_def,
    scale_eq]
  rfl

end Cert.RefSide

end
-- ==== Proof.RefMax.lean ====
/-
  The reference's row maximum, read at (batch, query row): the fold of `max` from `-∞` over the 2048 scaled
  scores of the row, followed by one more `max` with `-∞`, which changes nothing.  The reduction drops the
  last axis, so the entry it reads for key `k` is the score at (batch, row, k).
-/
import proofs.«178821_j33268816675404_2_alg».proof.Proof.RefScore
import Idealize.ShloMosaic.PureOps.Reduce
import Idealize.ShloMosaic.PureOps.Ideal.Laws

noncomputable section

namespace Cert.RefSide

open Idealize.ShloMosaic Idealize.ShloMosaic.ValueIdx Cert.ReferenceIdeal Cert.ReferenceIdeal.Gen Cert.ReferenceIdeal.Read

/-- Inserting key `k` on the dropped last axis over (batch, row) gives (batch, row, k). -/
theorem lift_last (h : S4x2048x2048.Reduces [2] S4x2048) (bb : Fin 4) (n k : Fin 2048) :
    h.lift (ix2 bb n) k = ix3 bb n k := funext fun a => Fin.ext (by
  match a with | ⟨0, _⟩ => rfl | ⟨1, _⟩ => rfl | ⟨2, _⟩ => rfl)

/-- The fold of `max` over a row of scores, before the final `max` with `-∞`. -/
theorem reduceMax_eq (x : FVec Ideal ⟨3, ![4, 2048, 1024]⟩ .f32)
    (Wq : FVec Ideal ⟨2, ![1024, 1024]⟩ .f32) (bq : FVec Ideal ⟨1, ![1024]⟩ .f32)
    (Wk : FVec Ideal ⟨2, ![1024, 1024]⟩ .f32) (bk : FVec Ideal ⟨1, ![1024]⟩ .f32)
    (bb : Fin 4) (n : Fin 2048) :
    val_main_v17 (F := Ideal) x Wq bq Wk bk (ix2 bb n)
      = Cert.Attn.rowMax (Cert.Attn.score (Cert.Attn.proj x Wq bq) (Cert.Attn.proj x Wk bk) bb n) := by
  unfold val_main_v17
  have hs := score_eq x Wq bq Wk bk bb n
  generalize val_main_v16 (F := Ideal) x Wq bq Wk bk = y at hs
  have h : S4x2048x2048.Reduces [2] S4x2048 := by decide
  refine (Host.reduce_eq_fold_single (FloatOps.maximumf (F := Ideal) (φ := .f32)) y (val_main_cst_1 (F := Ideal))
    reducesTo_S4x2048x2048_S4x2048_d2 h h_S_ (ix2 bb n)).trans ?_
  rw [val_main_cst_1_apply, Ideal.ofBits_def, ofBits_neg_inf]
  show (Finset.univ : Finset (Fin 2048)).fold max ⊥ (fun k => y (h.lift (ix2 bb n) k)) = _
  unfold Cert.Attn.rowMax
  exact Finset.fold_congr fun k _ => (congrArg y (lift_last h bb n k)).trans (hs k)

/-- The row maximum at (batch, query row). -/
theorem rowMax_eq (x : FVec Ideal ⟨3, ![4, 2048, 1024]⟩ .f32)
    (Wq : FVec Ideal ⟨2, ![1024, 1024]⟩ .f32) (bq : FVec Ideal ⟨1, ![1024]⟩ .f32)
    (Wk : FVec Ideal ⟨2, ![1024, 1024]⟩ .f32) (bk : FVec Ideal ⟨1, ![1024]⟩ .f32)
    (bb : Fin 4) (n : Fin 2048) :
    val_main_v19 (F := Ideal) x Wq bq Wk bk (ix2 bb n)
      = Cert.Attn.rowMax (Cert.Attn.score (Cert.Attn.proj x Wq bq) (Cert.Attn.proj x Wk bk) bb n) := by
  rw [val_main_v19_apply, val_main_v18_apply, val_main_cst_2_apply, reduceMax_eq, Ideal.ofBits_def, ofBits_neg_inf,
    Ideal.maximumf_def]
  exact max_eq_right bot_le

end Cert.RefSide

end
-- ==== Proof.RefSoft.lean ====
/-
  The reference's softmax of a row of scores, read entry by entry: the exponential of the score minus the row
  maximum; the sum of those 2048 exponentials, taken from the constant zero; and their quotient.  The row
  maximum and the sum live on (batch, row) and are broadcast along the key axis, so each entry of the row reads
  the same one.
-/
import proofs.«178821_j33268816675404_2_alg».proof.Proof.RefMax

noncomputable section

namespace Cert.RefSide

open Idealize.ShloMosaic Idealize.ShloMosaic.ValueIdx Cert.ReferenceIdeal Cert.ReferenceIdeal.Gen Cert.ReferenceIdeal.Read

/-- The unnormalised weight of key `j` for query row `n`. -/
theorem expShift_eq (x : FVec Ideal ⟨3, ![4, 2048, 1024]⟩ .f32)
    (Wq : FVec Ideal ⟨2, ![1024, 1024]⟩ .f32) (bq : FVec Ideal ⟨1, ![1024]⟩ .f32)
    (Wk : FVec Ideal ⟨2, ![1024, 1024]⟩ .f32) (bk : FVec Ideal ⟨1, ![1024]⟩ .f32)
    (bb : Fin 4) (n j : Fin 2048) :
    val_main_v23 (F := Ideal) x Wq bq Wk bk (ix3 bb n j) = Cert.Attn.expShift (Cert.Attn.score (Cert.Attn.proj x Wq bq) (Cert.Attn.proj x Wk bk) bb n) j := by
  rw [val_main_v23_apply, val_main_v22_apply, val_main_v21_apply, val_main_v20_apply, score_eq]
  have e : idx_main_v20 (idx_main_v21 (ix3 bb n j)) = ix2 bb n := funext fun a => by
    match a with | ⟨0, _⟩ => rfl | ⟨1, _⟩ => rfl
  rw [e, rowMax_eq]
  rfl

/-- The softmax denominator of query row `n`: the sum over all keys, the initial zero dropped. -/
theorem denom_eq (x : FVec Ideal ⟨3, ![4, 2048, 1024]⟩ .f32)
    (Wq : FVec Ideal ⟨2, ![1024, 1024]⟩ .f32) (bq : FVec Ideal ⟨1, ![1024]⟩ .f32)
    (Wk : FVec Ideal ⟨2, ![1024, 1024]⟩ .f32) (bk : FVec Ideal ⟨1, ![1024]⟩ .f32)
    (bb : Fin 4) (n : Fin 2048) :
    val_main_v24 (F := Ideal) x Wq bq Wk bk (ix2 bb n) = ∑ j' : Fin 2048, Cert.Attn.expShift (Cert.Attn.score (Cert.Attn.proj x Wq bq) (Cert.Attn.proj x Wk bk) bb n) j' := by
  rw [val_main_v24_apply, val_main_cst_3_apply, Ideal.ofBits_def, Ideal.ofBits_zero_f32, zero_add]
  refine Finset.sum_congr rfl fun k _ => ?_
  have e : idx_main_v24 (ix2 bb n) k = ix3 bb n k := funext fun a => by
    match a with | ⟨0, _⟩ => rfl | ⟨1, _⟩ => rfl | ⟨2, _⟩ => rfl
  rw [e, expShift_eq]

/-- The softmax weight of key `j` for query row `n`. -/
theorem weight_eq (x : FVec Ideal ⟨3, ![4, 2048, 1024]⟩ .f32)
    (Wq : FVec Ideal ⟨2, ![1024, 1024]⟩ .f32) (bq : FVec Ideal ⟨1, ![1024]⟩ .f32)
    (Wk : FVec Ideal ⟨2, ![1024, 1024]⟩ .f32) (bk : FVec Ideal ⟨1, ![1024]⟩ .f32)
    (bb : Fin 4) (n j : Fin 2048) :
    val_main_v27 (F := Ideal) x Wq bq Wk bk (ix3 bb n j) = Cert.Attn.weight (Cert.Attn.score (Cert.Attn.proj x Wq bq) (Cert.Attn.proj x Wk bk) bb n) j := by
  rw [val_main_v27_apply, val_main_v26_apply, val_main_v25_apply, expShift_eq]
  have e : idx_main_v25 (idx_main_v26 (ix3 bb n j)) = ix2 bb n := funext fun a => by
    match a with | ⟨0, _⟩ => rfl | ⟨1, _⟩ => rfl
  rw [e, denom_eq]
  rfl

end Cert.RefSide

end
-- ==== Proof.RefSide.lean ====
/-
  The reference's result is the specification's attention: at (batch, query row, output column) it is the sum
  over the 2048 keys of the softmax weight of the key times the value projection at (batch, key, column).  The
  last contraction keeps the batch axis and pairs the key axis of the weights with the row axis of the values.
-/
import proofs.«178821_j33268816675404_2_alg».proof.Proof.RefSoft

noncomputable section

namespace Cert.RefSide

open Idealize.ShloMosaic Idealize.ShloMosaic.ValueIdx Cert.ReferenceIdeal Cert.ReferenceIdeal.Gen Cert.ReferenceIdeal.Read

/-- The result at (batch, query row, output column). -/
theorem out_eq (x : FVec Ideal ⟨3, ![4, 2048, 1024]⟩ .f32)
    (Wq : FVec Ideal ⟨2, ![1024, 1024]⟩ .f32) (bq : FVec Ideal ⟨1, ![1024]⟩ .f32)
    (Wk : FVec Ideal ⟨2, ![1024, 1024]⟩ .f32) (bk : FVec Ideal ⟨1, ![1024]⟩ .f32)
    (Wv : FVec Ideal ⟨2, ![1024, 1024]⟩ .f32) (bv : FVec Ideal ⟨1, ![1024]⟩ .f32)
    (bb : Fin 4) (n : Fin 2048) (d : Fin 1024) :
    val_main_v28 (F := Ideal) x Wq bq Wk bk Wv bv (ix3 bb n d) = Cert.Attn.attnAt x Wq bq Wk bk Wv bv bb n d := by
  rw [val_main_v28_apply]
  unfold Cert.Attn.attnAt Cert.Attn.attnOut
  refine Finset.sum_congr rfl fun k _ => ?_
  have el : lidx_main_v28 (ix3 bb n d) k = ix3 bb n k := funext fun a => by
    match a with | ⟨0, _⟩ => rfl | ⟨1, _⟩ => rfl | ⟨2, _⟩ => rfl
  have er : ridx_main_v28 (ix3 bb n d) k = ix3 bb k d := funext fun a => by
    match a with | ⟨0, _⟩ => rfl | ⟨1, _⟩ => rfl | ⟨2, _⟩ => rfl
  rw [el, er, weight_eq, proj_v]

/-- The reference's whole result array is the specification's function of its seven argument arrays. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v28 (F := Ideal) m c
      = Cert.Attn.attn (m ((c.tc : Thread Cert.ReferenceIdeal.nD Cert.ReferenceIdeal.τ).loc Cert.ReferenceIdeal.main_arg0))
          (m ((c.tc : Thread _ _).loc Cert.ReferenceIdeal.main_arg1)) (m ((c.tc : Thread _ _).loc Cert.ReferenceIdeal.main_arg2))
          (m ((c.tc : Thread _ _).loc Cert.ReferenceIdeal.main_arg3)) (m ((c.tc : Thread _ _).loc Cert.ReferenceIdeal.main_arg4))
          (m ((c.tc : Thread _ _).loc Cert.ReferenceIdeal.main_arg5)) (m ((c.tc : Thread _ _).loc Cert.ReferenceIdeal.main_arg6)) := by
  rw [val_main_v28_eq]
  refine funext fun i => ?_
  obtain ⟨bb, n, d, rfl⟩ : ∃ (bb : Fin 4) (n : Fin 2048) (d : Fin 1024), i = ix3 bb n d := ⟨i 0, i 1, i 2, eq_ix3 i⟩
  rw [Cert.Attn.attn_ix3]
  exact out_eq _ _ _ _ _ _ _ bb n d

end Cert.RefSide

end
-- ==== Proof.lean ====
/- Self-attention over x : [4, 2048, 1024] with projection weights Wq, Wk, Wv : [1024, 1024] and biases bq, bk, bv : [1024]:
   q, k, v = x·W + b;  scores = q·kᵀ / √1024;  the result is softmax(scores)·v, batch by batch.
   The kernel program computes it in two tiled kernels (one fused projection over 16 row tiles; one attention kernel over
   4 batches x 4 query tiles, which scales q by 2⁻⁵ before the score product); the reference computes it with whole-array
   host operations (and scales the scores by 1/√1024 after the product).  Over the extended reals the two are one function:
   √1024 = 32, a nonnegative real factor moves through a finite sum, and max(-∞, y) = y; nothing else separates them, and
   finiteness of the inputs is never used.
   The modules: Proof/AttnSpec (the function, stated once), Proof/KernelRun and Proof/KernelIdealRun (every execution of the
   kernel program terminates with each buffer at named contents: the three frames' first two), Proof/ProjBody, Proof/AttnBody
   (the two kernel bodies read at an index), Proof/ProjArrays, Proof/AttnArray (from a kernel's blocks to its whole arrays),
   Proof/HostReads (the host reshapes and concatenations read at an index), Proof/KernelValue (the kernel program's result is
   the function), Proof/RefSide (the reference's result is the function). -/
import proofs.«178821_j33268816675404_2_alg».proof.Defs
import proofs.«178821_j33268816675404_2_alg».proof.Proof.Gen.Kernel
import proofs.«178821_j33268816675404_2_alg».proof.Proof.Gen.KernelIdeal
import proofs.«178821_j33268816675404_2_alg».proof.Proof.Gen.ReferenceIdeal
import proofs.«178821_j33268816675404_2_alg».proof.Proof.Gen.ReferenceIdeal.Run
import proofs.«178821_j33268816675404_2_alg».proof.Proof.Gen.ReferenceIdeal.Read
import proofs.«178821_j33268816675404_2_alg».proof.Proof.Gen.Pre_finite_inputs
import proofs.«178821_j33268816675404_2_alg».proof.Proof.KernelRun
import proofs.«178821_j33268816675404_2_alg».proof.Proof.KernelIdealRun
import proofs.«178821_j33268816675404_2_alg».proof.Proof.KernelValue
import proofs.«178821_j33268816675404_2_alg».proof.Proof.RefSide
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Fr.frame m ρ

/-- So does its ideal reading. -/
theorem frame_ki : Cert.frame_KernelIdeal := fun m ρ _ => Cert.KernelIdeal.Fr.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal reading rewrote no operation of the kernel program. -/
theorem preserves : Cert.preserves_Kernel_KernelIdeal := trivial

/-- Both programs end with the attention function of the arguments in their result arrays. -/
theorem algebraic : Cert.algebraic_KernelIdeal_ReferenceIdeal := by
  intro m ρ m' ρ' _ hagree
  refine ⟨fun c => Cert.Attn.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Fr.run_all m ρ)
    exact ⟨(h c _ (Cert.KernelIdeal.Fr.mem_uc Cert.KernelIdeal.main_v9 (by decide))).trans (Cert.KernelIdeal.Val.kernel_result m c),
      (h c _ (Cert.KernelIdeal.Fr.mem_uc Cert.KernelIdeal.main_arg0 (by decide))).trans (Cert.KernelIdeal.Fr.W4_main_arg0 m c),
      (h c _ (Cert.KernelIdeal.Fr.mem_uc Cert.KernelIdeal.main_arg1 (by decide))).trans (Cert.KernelIdeal.Fr.W4_main_arg1 m c),
      (h c _ (Cert.KernelIdeal.Fr.mem_uc Cert.KernelIdeal.main_arg2 (by decide))).trans (Cert.KernelIdeal.Fr.W4_main_arg2 m c),
      (h c _ (Cert.KernelIdeal.Fr.mem_uc Cert.KernelIdeal.main_arg3 (by decide))).trans (Cert.KernelIdeal.Fr.W4_main_arg3 m c),
      (h c _ (Cert.KernelIdeal.Fr.mem_uc Cert.KernelIdeal.main_arg4 (by decide))).trans (Cert.KernelIdeal.Fr.W4_main_arg4 m c),
      (h c _ (Cert.KernelIdeal.Fr.mem_uc Cert.KernelIdeal.main_arg5 (by decide))).trans (Cert.KernelIdeal.Fr.W4_main_arg5 m c),
      (h c _ (Cert.KernelIdeal.Fr.mem_uc Cert.KernelIdeal.main_arg6 (by decide))).trans (Cert.KernelIdeal.Fr.W4_main_arg6 m c)⟩
  · refine (θ_run Cert.ReferenceIdeal.defs _ _).mono (fun _ h c => ⟨(h c).1.trans ?_, (h c).2⟩)
      (Cert.ReferenceIdeal.Value.run (F := Ideal) m' ρ')
    rw [Cert.RefSide.res_eq, (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
